-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x300 : Shape := ⟨2, ![65536, 300]⟩
abbrev S65536x4x256 : Shape := ⟨3, ![65536, 4, 256]⟩
abbrev S768x300 : Shape := ⟨2, ![768, 300]⟩
abbrev S768 : Shape := ⟨1, ![768]⟩
abbrev S768x256 : Shape := ⟨2, ![768, 256]⟩
abbrev S256x300 : Shape := ⟨2, ![256, 300]⟩
abbrev S256 : Shape := ⟨1, ![256]⟩
abbrev S256x256 : Shape := ⟨2, ![256, 256]⟩
abbrev S_ : Shape := ⟨0, ![]⟩

class Facts : Prop where
  bcast_S_S65536x300 : S_.BroadcastsInDim S65536x300 (![] : Fin 0 → Fin S65536x300.rank)
  reducesTo_S65536x300_S_d0_1 : S65536x300.ReducesTo [0, 1] S_
  h_S_ : 0 < S_.numel
  bcast_S_S65536x4x256 : S_.BroadcastsInDim S65536x4x256 (![] : Fin 0 → Fin S65536x4x256.rank)
  reducesTo_S65536x4x256_S_d0_1_2 : S65536x4x256.ReducesTo [0, 1, 2] S_
  bcast_S_S768x300 : S_.BroadcastsInDim S768x300 (![] : Fin 0 → Fin S768x300.rank)
  reducesTo_S768x300_S_d0_1 : S768x300.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x300 .f32) (main_arg8 : FVec F S256 .f32) (main_arg9 : FVec F S256x256 .f32) (main_arg10 : FVec F S256 .f32) (main_v33 : IVec S_ 1) : IVec S_ 1 :=
  let main_v34 : FVec F S256x300 .f32 := Host.absf main_arg7
  let main_cst_12 : FVec F S_ .f32 := constant S_ .f32 0x7F800000#32
  let main_v35 : FVec F S256x300 .f32 := broadcastInDim S256x300 ![] bcast_S_S256x300 main_cst_12
  let main_v36 : IVec S256x300 1 := cmpf .olt main_v34 main_v35
  let main_c_13 : IVec S_ 1 := constantI S_ 1 1#1
  let main_v37 : IVec S_ 1 := (fun x v => Host.reduce IntOp.andi x v reducesTo_S256x300_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S768 .f32) (main_arg5 : FVec F S768x256 .f32) (main_arg6 : FVec F S768 .f32) (main_arg7 : FVec F S256x300 .f32) (main_arg8 : FVec F S256 .f32) (main_arg9 : FVec F S256x256 .f32) (main_arg10 : FVec F S256 .f32) (main_v13 : IVec S_ 1) (main_v16 : IVec S768x300 1) : IVec S_ 1 :=
  let main_c_5 : IVec S_ 1 := constantI S_ 1 1#1
  let main_v17 : IVec S_ 1 := (fun x v => Host.reduce IntOp.andi x v reducesTo_S768x300_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x300 .f32) (main_arg1 : FVec F S65536x4x256 .f32) (main_arg2 : FVec F S65536x4x256 .f32) (main_arg3 : FVec F S768x300 .f32) (main_arg4 : FVec F S768 .f32) (main_arg5 : FVec F S768x256 .f32) (main_arg6 : FVec F S768 .f32) (main_arg7 : FVec F S256x300 .f32) (main_arg8 : FVec F S256 .f32) (main_arg9 : FVec F S256x256 .f32) (main_arg10 : FVec F S256 .f32) : IVec S_ 1 :=
  let main_v0 : FVec F S65536x300 .f32 := Host.absf main_arg0
  let main_cst : FVec F S_ .f32 := constant S_ .f32 0x7F800000#32
  let main_v1 : FVec F S65536x300 .f32 := broadcastInDim S65536x300 ![] bcast_S_S65536x300 main_cst
  let main_v2 : IVec S65536x300 1 := cmpf .olt main_v0 main_v1
  let main_c : IVec S_ 1 := constantI S_ 1 1#1
  let main_v3 : IVec S_ 1 := (fun x v => Host.reduce IntOp.andi x v reducesTo_S65536x300_S_d0_1 h_S_) main_v2 main_c
  let main_v4 : FVec F S65536x4x256 .f32 := Host.absf main_arg1
  let main_cst_0 : FVec F S_ .f32 := constant S_ .f32 0x7F800000#32
  let main_v5 : FVec F S65536x4x256 .f32 := broadcastInDim S65536x4x256 ![] bcast_S_S65536x4x256 main_cst_0
  let main_v6 : IVec S65536x4x256 1 := cmpf .olt main_v4 main_v5
  let main_c_1 : IVec S_ 1 := constantI S_ 1 1#1
  let main_v7 : IVec S_ 1 := (fun x v => Host.reduce IntOp.andi x v reducesTo_S65536x4x256_S_d0_1_2 h_S_) main_v6 main_c_1
  let main_v8 : IVec S_ 1 := andi main_v3 main_v7
  let main_v9 : FVec F S65536x4x256 .f32 := Host.absf main_arg2
  let main_cst_2 : FVec F S_ .f32 := constant S_ .f32 0x7F800000#32
  let main_v10 : FVec F S65536x4x256 .f32 := broadcastInDim S65536x4x256 ![] bcast_S_S65536x4x256 main_cst_2
  let main_v11 : IVec S65536x4x256 1 := cmpf .olt main_v9 main_v10
  let main_c_3 : IVec S_ 1 := constantI S_ 1 1#1
  let main_v12 : IVec S_ 1 := (fun x v => Host.reduce IntOp.andi x v reducesTo_S65536x4x256_S_d0_1_2 h_S_) main_v11 main_c_3
  let main_v13 : IVec S_ 1 := andi main_v8 main_v12
  let main_v14 : FVec F S768x300 .f32 := Host.absf main_arg3
  let main_cst_4 : FVec F S_ .f32 := constant S_ .f32 0x7F800000#32
  let main_v15 : FVec F S768x300 .f32 := broadcastInDim S768x300 ![] bcast_S_S768x300 main_cst_4
  let main_v16 : IVec S768x300 1 := cmpf .olt main_v14 main_v15
  fn_part1 (F := F) main_arg4 main_arg5 main_arg6 main_arg7 main_arg8 main_arg9 main_arg10 main_v13 main_v16
-- ==== Kernel.lean ====
abbrev S65536x300 : Shape := ⟨2, ![65536, 300]⟩
abbrev S65536x4x256 : Shape := ⟨3, ![65536, 4, 256]⟩
abbrev S768x300 : Shape := ⟨2, ![768, 300]⟩
abbrev S768 : Shape := ⟨1, ![768]⟩
abbrev S768x256 : Shape := ⟨2, ![768, 256]⟩
abbrev S256x300 : Shape := ⟨2, ![256, 300]⟩
abbrev S256 : Shape := ⟨1, ![256]⟩
abbrev S256x256 : Shape := ⟨2, ![256, 256]⟩
abbrev S65536x1024 : Shape := ⟨2, ![65536, 1024]⟩
abbrev S300x256 : Shape := ⟨2, ![300, 256]⟩
abbrev S300x768 : Shape := ⟨2, ![300, 768]⟩
abbrev S256x768 : Shape := ⟨2, ![256, 768]⟩
abbrev S1x256 : Shape := ⟨2, ![1, 256]⟩
abbrev S1x768 : Shape := ⟨2, ![1, 768]⟩
abbrev S2x65536x256 : Shape := ⟨3, ![2, 65536, 256]⟩
abbrev S1024x300 : Shape := ⟨2, ![1024, 300]⟩
abbrev S1024x1024 : Shape := ⟨2, ![1024, 1024]⟩
abbrev S2x1024x256 : Shape := ⟨3, ![2, 1024, 256]⟩
abbrev S1024x256 : Shape := ⟨2, ![1024, 256]⟩
abbrev S1024x768 : Shape := ⟨2, ![1024, 768]⟩
abbrev S1x1024x256 : Shape := ⟨3, ![1, 1024, 256]⟩

abbrev nBuf : Space → Nat
  | .hbm => 26
  | .vmem => 16
  | .smem => 0
  | _ => 0

abbrev bufTy : (tb : Table) → Fin (tcTables nBuf tb) → BufTy
  | .hbm, ⟨0, _⟩ => ⟨S65536x300, .f32⟩
  | .hbm, ⟨1, _⟩ => ⟨S65536x4x256, .f32⟩
  | .hbm, ⟨2, _⟩ => ⟨S65536x4x256, .f32⟩
  | .hbm, ⟨3, _⟩ => ⟨S768x300, .f32⟩
  | .hbm, ⟨4, _⟩ => ⟨S768, .f32⟩
  | .hbm, ⟨5, _⟩ => ⟨S768x256, .f32⟩
  | .hbm, ⟨6, _⟩ => ⟨S768, .f32⟩
  | .hbm, ⟨7, _⟩ => ⟨S256x300, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S65536x1024, .f32⟩
  | .hbm, ⟨12, _⟩ => ⟨S65536x1024, .f32⟩
  | .hbm, ⟨13, _⟩ => ⟨S300x256, .f32⟩
  | .hbm, ⟨14, _⟩ => ⟨S300x256, .bf16⟩
  | .hbm, ⟨15, _⟩ => ⟨S256x256, .f32⟩
  | .hbm, ⟨16, _⟩ => ⟨S256x256, .bf16⟩
  | .hbm, ⟨17, _⟩ => ⟨S300x768, .f32⟩
  | .hbm, ⟨18, _⟩ => ⟨S300x768, .bf16⟩
  | .hbm, ⟨19, _⟩ => ⟨S256x768, .f32⟩
  | .hbm, ⟨20, _⟩ => ⟨S256x768, .bf16⟩
  | .hbm, ⟨21, _⟩ => ⟨S1x256, .f32⟩
  | .hbm, ⟨22, _⟩ => ⟨S1x256, .f32⟩
  | .hbm, ⟨23, _⟩ => ⟨S1x768, .f32⟩
  | .hbm, ⟨24, _⟩ => ⟨S1x768, .f32⟩
  | .hbm, ⟨25, _⟩ => ⟨S2x65536x256, .f32⟩
  | .local _ .vmem, ⟨0, _⟩ => ⟨S1024x300, .f32⟩
  | .local _ .vmem, ⟨1, _⟩ => ⟨S1024x300, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S300x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S300x768, .bf16⟩
  | .local _ .vmem, ⟨11, _⟩ => ⟨S1x768, .f32⟩
  | .local _ .vmem, ⟨12, _⟩ => ⟨S256x768, .bf16⟩
  | .local _ .vmem, ⟨13, _⟩ => ⟨S1x768, .f32⟩
  | .local _ .vmem, ⟨14, _⟩ => ⟨S2x1024x256, .f32⟩
  | .local _ .vmem, ⟨15, _⟩ => ⟨S2x1024x256, .f32⟩
  | _, _ => ⟨S65536x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S300x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S65536x4x256_S65536x1024 : S65536x4x256.ShapeCasts S65536x1024
  transposes_S256x300_S300x256_1_0 : S256x300.Transposes [1, 0] S300x256
  bitsLt_bf16_f32 : FTy.bits .bf16 < FTy.bits .f32
  transposes_S256x256_S256x256_1_0 : S256x256.Transposes [1, 0] S256x256
  transposes_S768x300_S300x768_1_0 : S768x300.Transposes [1, 0] S300x768
  transposes_S768x256_S256x768_1_0 : S768x256.Transposes [1, 0] S256x768
  shapeCasts_S256_S1x256 : S256.ShapeCasts S1x256
  shapeCasts_S768_S1x768 : S768.ShapeCasts S1x768
  inb_S1024x300_S1024x300_0_0 : ∀ a, (![0, 0] : Fin 2 → Nat) a + S1024x300.size a ≤ S1024x300.size a
  h_S1024x300 : 0 < S1024x300.numel
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x1024_S1024x256_0_0 : ∀ a, (![0, 0] : Fin 2 → Nat) a + S1024x256.size a ≤ S1024x1024.size a
  h_S1024x256 : 0 < S1024x256.numel
  shapeCasts_S1024x256_S1024x256 : S1024x256.ShapeCasts S1024x256
  inb_S1024x1024_S1024x256_0_256 : ∀ a, (![0, 256] : Fin 2 → Nat) a + S1024x256.size a ≤ S1024x1024.size a
  inb_S1024x1024_S1024x256_0_512 : ∀ a, (![0, 512] : Fin 2 → Nat) a + S1024x256.size a ≤ S1024x1024.size a
  inb_S1024x1024_S1024x256_0_768 : ∀ a, (![0, 768] : Fin 2 → Nat) a + S1024x256.size a ≤ S1024x1024.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S300x768_S300x768_0_0 : ∀ a, (![0, 0] : Fin 2 → Nat) a + S300x768.size a ≤ S300x768.size a
  h_S300x768 : 0 < S300x768.numel
  shapeCasts_S300x768_S300x768 : S300x768.ShapeCasts S300x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S2x1024x256_S1x1024x256_1_0_0 : ∀ a, (![1, 0, 0] : Fin 3 → Nat) a + S1x1024x256.size a ≤ S2x1024x256.size a
  dot_S1024x300_S300x256_S1024x256_1_0_0_1_n_n_wf : DotDims.WF S1024x300 S300x256 S1024x256 [1] [0] [0] [1] [] []
  dot_S1024x256_S256x256_S1024x256_1_0_0_1_n_n_wf : DotDims.WF S1024x256 S256x256 S1024x256 [1] [0] [0] [1] [] []
  dot_S1024x300_S300x768_S1024x768_1_0_0_1_n_n_wf : DotDims.WF S1024x300 S300x768 S1024x768 [1] [0] [0] [1] [] []
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x300.size a ≤ S65536x300.size a
  hwx0_0 : ∀ i : grid0.Coords, EltTy.bits .f32 = 32 ∨ (Rect.block (s := S65536x300) S1024x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x256.size a ≤ S300x256.size a
  hwx0_3 : ∀ i : grid0.Coords, EltTy.bits .bf16 = 32 ∨ (Rect.block (s := S300x256) S300x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S300x768.size a ≤ S300x768.size a
  hwx0_7 : ∀ i : grid0.Coords, EltTy.bits .bf16 = 32 ∨ (Rect.block (s := S300x768) S300x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S256x768.size a
  hwx0_9 : ∀ i : grid0.Coords, EltTy.bits .bf16 = 32 ∨ (Rect.block (s := S256x768) S256x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x1024x256.size a ≤ S2x65536x256.size a
  hwx0_11 : ∀ i : grid0.Coords, EltTy.bits .f32 = 32 ∨ (Rect.block (s := S2x65536x256) S2x1024x256.size (cc0_transform_11 i) (hinb0_11 i)).WholeWords (EltTy.packing .f32)

variable [Facts₀]

def dot_S1024x300_S300x256_S1024x256_1_0_0_1_n_n : DotDims S1024x300 S300x256 S1024x256 where
  lhsContracting := [1]
  rhsContracting := [0]
  lhsNonContracting := [0]
  rhsNonContracting := [1]
  lhsBatch := []
  rhsBatch := []
  wf := dot_S1024x300_S300x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x300_S300x768_S1024x768_1_0_0_1_n_n : DotDims S1024x300 S300x768 S1024x768 where
  lhsContracting := [1]
  rhsContracting := [0]
  lhsNonContracting := [0]
  rhsNonContracting := [1]
  lhsBatch := []
  rhsBatch := []
  wf := dot_S1024x300_S300x768_S1024x768_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_arg0) S1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S300x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S300x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S2x1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x300 : Shape := ⟨2, ![65536, 300]⟩
abbrev S65536x4x256 : Shape := ⟨3, ![65536, 4, 256]⟩
abbrev S768x300 : Shape := ⟨2, ![768, 300]⟩
abbrev S768 : Shape := ⟨1, ![768]⟩
abbrev S768x256 : Shape := ⟨2, ![768, 256]⟩
abbrev S256x300 : Shape := ⟨2, ![256, 300]⟩
abbrev S256 : Shape := ⟨1, ![256]⟩
abbrev S256x256 : Shape := ⟨2, ![256, 256]⟩
abbrev S_ : Shape := ⟨0, ![]⟩
abbrev S65536x256 : Shape := ⟨2, ![65536, 256]⟩
abbrev S300x256 : Shape := ⟨2, ![300, 256]⟩
abbrev S1x256 : Shape := ⟨2, ![1, 256]⟩
abbrev S65536x1x256 : Shape := ⟨3, ![65536, 1, 256]⟩
abbrev S1x1x256 : Shape := ⟨3, ![1, 1, 256]⟩
abbrev S300x768 : Shape := ⟨2, ![300, 768]⟩
abbrev S65536x768 : Shape := ⟨2, ![65536, 768]⟩
abbrev S1x768 : Shape := ⟨2, ![1, 768]⟩
abbrev S256x768 : Shape := ⟨2, ![256, 768]⟩
abbrev S1x65536x256 : Shape := ⟨3, ![1, 65536, 256]⟩
abbrev S2x65536x256 : Shape := ⟨3, ![2, 65536, 256]⟩

abbrev nBuf : Space → Nat
  | .hbm => 74
  | .vmem => 0
  | .smem => 0
  | _ => 0

abbrev bufTy : (tb : Table) → Fin (tcTables nBuf tb) → BufTy
  | .hbm, ⟨0, _⟩ => ⟨S65536x300, .f32⟩
  | .hbm, ⟨1, _⟩ => ⟨S65536x4x256, .f32⟩
  | .hbm, ⟨2, _⟩ => ⟨S65536x4x256, .f32⟩
  | .hbm, ⟨3, _⟩ => ⟨S768x300, .f32⟩
  | .hbm, ⟨4, _⟩ => ⟨S768, .f32⟩
  | .hbm, ⟨5, _⟩ => ⟨S768x256, .f32⟩
  | .hbm, ⟨6, _⟩ => ⟨S768, .f32⟩
  | .hbm, ⟨7, _⟩ => ⟨S256x300, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .f32⟩
  | .hbm, ⟨12, _⟩ => ⟨S65536x256, .f32⟩
  | .hbm, ⟨13, _⟩ => ⟨S300x256, .f32⟩
  | .hbm, ⟨14, _⟩ => ⟨S65536x256, .f32⟩
  | .hbm, ⟨15, _⟩ => ⟨S1x256, .f32⟩
  | .hbm, ⟨16, _⟩ => ⟨S65536x256, .f32⟩
  | .hbm, ⟨17, _⟩ => ⟨S65536x256, .f32⟩
  | .hbm, ⟨18, _⟩ => ⟨S65536x1x256, .f32⟩
  | .hbm, ⟨19, _⟩ => ⟨S65536x4x256, .f32⟩
  | .hbm, ⟨20, _⟩ => ⟨S1x1x256, .f32⟩
  | .hbm, ⟨21, _⟩ => ⟨S65536x4x256, .f32⟩
  | .hbm, ⟨22, _⟩ => ⟨S65536x4x256, .f32⟩
  | .hbm, ⟨23, _⟩ => ⟨S65536x4x256, .f32⟩
  | .hbm, ⟨24, _⟩ => ⟨S65536x4x256, .f32⟩
  | .hbm, ⟨25, _⟩ => ⟨S65536x4x256, .f32⟩
  | .hbm, ⟨26, _⟩ => ⟨S65536x4x256, .f32⟩
  | .hbm, ⟨27, _⟩ => ⟨S_, .f32⟩
  | .hbm, ⟨28, _⟩ => ⟨S65536x4x256, .f32⟩
  | .hbm, ⟨29, _⟩ => ⟨S65536x4x256, .f32⟩
  | .hbm, ⟨30, _⟩ => ⟨S_, .f32⟩
  | .hbm, ⟨31, _⟩ => ⟨S65536x4x256, .f32⟩
  | .hbm, ⟨32, _⟩ => ⟨S65536x4x256, .f32⟩
  | .hbm, ⟨33, _⟩ => ⟨S65536x4x256, .f32⟩
  | .hbm, ⟨34, _⟩ => ⟨S_, .f32⟩
  | .hbm, ⟨35, _⟩ => ⟨S65536x256, .f32⟩
  | .hbm, ⟨36, _⟩ => ⟨S300x768, .f32⟩
  | .hbm, ⟨37, _⟩ => ⟨S65536x768, .f32⟩
  | .hbm, ⟨38, _⟩ => ⟨S1x768, .f32⟩
  | .hbm, ⟨39, _⟩ => ⟨S65536x768, .f32⟩
  | .hbm, ⟨40, _⟩ => ⟨S65536x768, .f32⟩
  | .hbm, ⟨41, _⟩ => ⟨S256x768, .f32⟩
  | .hbm, ⟨42, _⟩ => ⟨S65536x768, .f32⟩
  | .hbm, ⟨43, _⟩ => ⟨S1x768, .f32⟩
  | .hbm, ⟨44, _⟩ => ⟨S65536x768, .f32⟩
  | .hbm, ⟨45, _⟩ => ⟨S65536x768, .f32⟩
  | .hbm, ⟨46, _⟩ => ⟨S65536x768, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S_, .f32⟩
  | .hbm, ⟨53, _⟩ => ⟨S65536x256, .f32⟩
  | .hbm, ⟨54, _⟩ => ⟨S65536x256, .f32⟩
  | .hbm, ⟨55, _⟩ => ⟨S_, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S_, .f32⟩
  | .hbm, ⟨61, _⟩ => ⟨S65536x256, .f32⟩
  | .hbm, ⟨62, _⟩ => ⟨S65536x256, .f32⟩
  | .hbm, ⟨63, _⟩ => ⟨S_, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S65536x256, .f32⟩
  | .hbm, ⟨70, _⟩ => ⟨S65536x256, .f32⟩
  | .hbm, ⟨71, _⟩ => ⟨S1x65536x256, .f32⟩
  | .hbm, ⟨72, _⟩ => ⟨S1x65536x256, .f32⟩
  | .hbm, ⟨73, _⟩ => ⟨S2x65536x256, .f32⟩
  | _, _ => ⟨S65536x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  reducesTo_S65536x4x256_S65536x256_d1 : S65536x4x256.ReducesTo [1] S65536x256
  h_S_ : 0 < S_.numel
  transposes_S256x300_S300x256_1_0 : S256x300.Transposes [1, 0] S300x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S65536x256_S65536x1x256_0_2 : S65536x256.BroadcastsInDim S65536x1x256 (![0, 2] : Fin 2 → Fin S65536x1x256.rank)
  bcast_S256_S1x1x256_2 : S256.BroadcastsInDim S1x1x256 (![2] : Fin 1 → Fin S1x1x256.rank)
  bcast_S1x1x256_S65536x4x256_0_1_2 : S1x1x256.BroadcastsInDim S65536x4x256 (![0, 1, 2] : Fin 3 → Fin S65536x4x256.rank)
  bcast_S65536x1x256_S65536x4x256_0_1_2 : S65536x1x256.BroadcastsInDim S65536x4x256 (![0, 1, 2] : Fin 3 → Fin S65536x4x256.rank)
  bcast_S_S65536x4x256 : S_.BroadcastsInDim S65536x4x256 (![] : Fin 0 → Fin S65536x4x256.rank)
  transposes_S768x300_S300x768_1_0 : S768x300.Transposes [1, 0] S300x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  transposes_S768x256_S256x768_1_0 : S768x256.Transposes [1, 0] S256x768
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  bcast_S65536x256_S1x65536x256_1_2 : S65536x256.BroadcastsInDim S1x65536x256 (![1, 2] : Fin 2 → Fin S1x65536x256.rank)
  concatenates_S1x65536x256_S1x65536x256_S2x65536x256_d0 : Shape.Concatenates [S1x65536x256, S1x65536x256] S2x65536x256 0
  dot_S65536x300_S300x256_S65536x256_1_0_0_1_n_n_wf : DotDims.WF S65536x300 S300x256 S65536x256 [1] [0] [0] [1] [] []
  dot_S65536x4x256_S256x256_S65536x4x256_2_1_01_0_n_n_wf : DotDims.WF S65536x4x256 S256x256 S65536x4x256 [2] [1] [0, 1] [0] [] []
  dot_S65536x300_S300x768_S65536x768_1_0_0_1_n_n_wf : DotDims.WF S65536x300 S300x768 S65536x768 [1] [0] [0] [1] [] []
  dot_S65536x256_S256x768_S65536x768_1_0_0_1_n_n_wf : DotDims.WF S65536x256 S256x768 S65536x768 [1] [0] [0] [1] [] []

variable [Facts₀]

def dot_S65536x300_S300x256_S65536x256_1_0_0_1_n_n : DotDims S65536x300 S300x256 S65536x256 where
  lhsContracting := [1]
  rhsContracting := [0]
  lhsNonContracting := [0]
  rhsNonContracting := [1]
  lhsBatch := []
  rhsBatch := []
  wf := dot_S65536x300_S300x256_S65536x256_1_0_0_1_n_n_wf
def dot_S65536x4x256_S256x256_S65536x4x256_2_1_01_0_n_n : DotDims S65536x4x256 S256x256 S65536x4x256 where
  lhsContracting := [2]
  rhsContracting := [1]
  lhsNonContracting := [0, 1]
  rhsNonContracting := [0]
  lhsBatch := []
  rhsBatch := []
  wf := dot_S65536x4x256_S256x256_S65536x4x256_2_1_01_0_n_n_wf
def dot_S65536x300_S300x768_S65536x768_1_0_0_1_n_n : DotDims S65536x300 S300x768 S65536x768 where
  lhsContracting := [1]
  rhsContracting := [0]
  lhsNonContracting := [0]
  rhsNonContracting := [1]
  lhsBatch := []
  rhsBatch := []
  wf := dot_S65536x300_S300x768_S65536x768_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.TileOps.lean ====
/-
  The operations of the tile body that are not entry-by-entry, each read at one entry of a [1024, 256] or
  [1024, 768] tile: a bias row [1, n] spread over the 1024 rows reads the bias at the column; a product of a
  [1024, K] tile with a [K, n] weight tile into zeros reads the sum over k of row entry times weight entry; the three
  256-wide column slices of the 768 gate columns read the gate at column j, 256 + j, 512 + j; a [1024, 256] value viewed
  as [1, 1024, 256] reads itself; the tile's result buffer [2, 1024, 256], written slot by slot, reads in slot 0 what the
  first store wrote and in slot 1 what the second wrote; and child a's 256 columns of a [1024, 1024] tile of flattened
  children are its columns 256 a + k.
-/
import proofs.«119210_j22351009808691_2_alg».proof.Proof.Gen.KernelIdeal.Frame
import proofs.«119210_j22351009808691_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-- Column 256 a + k of the flattened children: child a's entry k. -/
abbrev col (a : Fin 4) (k : Fin 256) : Fin 1024 := ⟨256 * a.val + k.val, by omega⟩

/-! ## Bias rows -/

/-- A [1, 256] bias row spread over 1024 rows, at (r, j), is the bias at column j. -/
theorem biasRow256 (v : Vec Ideal S1x256 .f32) (r : Fin 1024) (j : Fin 256) :
    broadcastTo S1024x256 (shapeCast S1x256 v shapeCasts_S1x256_S1x256) broadcasts_S1x256_S1024x256 (ix2 r j)
      = v (ix2 (0 : Fin 1) j) := by
  rw [shapeCast_self]
  exact broadcastTo_apply v broadcasts_S1x256_S1024x256 (ix2 r j) (ix2 (0 : Fin 1) j) (fun a => by
    match a with
    | ⟨0, _⟩ => rfl
    | ⟨1, _⟩ => rfl)

/-- A [1, 768] bias row spread over 1024 rows, at (r, g), is the bias at column g. -/
theorem biasRow768 (v : Vec Ideal S1x768 .f32) (r : Fin 1024) (g : Fin 768) :
    broadcastTo S1024x768 (shapeCast S1x768 v shapeCasts_S1x768_S1x768) broadcasts_S1x768_S1024x768 (ix2 r g)
      = v (ix2 (0 : Fin 1) g) := by
  rw [shapeCast_self]
  exact broadcastTo_apply v broadcasts_S1x768_S1024x768 (ix2 r g) (ix2 (0 : Fin 1) g) (fun a => by
    match a with
    | ⟨0, _⟩ => rfl
    | ⟨1, _⟩ => rfl)

/-! ## The four products -/

/-- [1024, 300] times [300, 256] into zeros, at (r, j). -/
theorem dot300x256 {φ : FTy} (l : FVec Ideal S1024x300 φ) (w : Vec Ideal S300x256 .bf16) (r : Fin 1024) (j : Fin 256) :
    matmul dot_S1024x300_S300x256_S1024x256_1_0_0_1_n_n none l (shapeCast S300x256 w shapeCasts_S300x256_S300x256 : FVec Ideal S300x256 .bf16)
        (constant S1024x256 .f32 0x00000000#32) (ix2 r j)
      = ∑ k : Fin 300, l (ix2 r k) * w (ix2 k j) := by
  rw [shapeCast_self]
  exact Cert.Lib.matmul_zero_apply dot_S1024x300_S300x256_S1024x256_1_0_0_1_n_n.wf none l w r j

/-- [1024, 256] times [256, 256] into zeros, at (r, j). -/
theorem dot256x256 {φ : FTy} (l : FVec Ideal S1024x256 φ) (w : Vec Ideal S256x256 .bf16) (r : Fin 1024) (j : Fin 256) :
    matmul dot_S1024x256_S256x256_S1024x256_1_0_0_1_n_n none l (shapeCast S256x256 w shapeCasts_S256x256_S256x256 : FVec Ideal S256x256 .bf16)
        (constant S1024x256 .f32 0x00000000#32) (ix2 r j)
      = ∑ k : Fin 256, l (ix2 r k) * w (ix2 k j) := by
  rw [shapeCast_self]
  exact Cert.Lib.matmul_zero_apply dot_S1024x256_S256x256_S1024x256_1_0_0_1_n_n.wf none l w r j

/-- [1024, 300] times [300, 768] into zeros, at (r, g). -/
theorem dot300x768 {φ : FTy} (l : FVec Ideal S1024x300 φ) (w : Vec Ideal S300x768 .bf16) (r : Fin 1024) (g : Fin 768) :
    matmul dot_S1024x300_S300x768_S1024x768_1_0_0_1_n_n none l (shapeCast S300x768 w shapeCasts_S300x768_S300x768 : FVec Ideal S300x768 .bf16)
        (constant S1024x768 .f32 0x00000000#32) (ix2 r g)
      = ∑ k : Fin 300, l (ix2 r k) * w (ix2 k g) := by
  rw [shapeCast_self]
  exact Cert.Lib.matmul_zero_apply dot_S1024x300_S300x768_S1024x768_1_0_0_1_n_n.wf none l w r g

/-- [1024, 256] times [256, 768] into zeros, at (r, g). -/
theorem dot256x768 {φ : FTy} (l : FVec Ideal S1024x256 φ) (w : Vec Ideal S256x768 .bf16) (r : Fin 1024) (g : Fin 768) :
    matmul dot_S1024x256_S256x768_S1024x768_1_0_0_1_n_n none l (shapeCast S256x768 w shapeCasts_S256x768_S256x768 : FVec Ideal S256x768 .bf16)
        (constant S1024x768 .f32 0x00000000#32) (ix2 r g)
      = ∑ k : Fin 256, l (ix2 r k) * w (ix2 k g) := by
  rw [shapeCast_self]
  exact Cert.Lib.matmul_zero_apply dot_S1024x256_S256x768_S1024x768_1_0_0_1_n_n.wf none l w r g

/-! ## The three gate slices -/

/-- Columns 0 … 255 of the gates: the input gate's pre-activation. -/
theorem sliceI (v : FVec Ideal S1024x768 .f32) (r : Fin 1024) (j : Fin 256) :
    extractStridedSlice S1024x256 ![0, 0] v slices_S1024x768_o0_0_S1024x256 (ix2 r j) = v (ix2 r (⟨j.val, by omega⟩ : Fin 768)) :=
  extractStridedSlice_apply ![0, 0] v slices_S1024x768_o0_0_S1024x256 (ix2 r j) (ix2 r (⟨j.val, by omega⟩ : Fin 768)) (fun a => by
    match a with
    | ⟨0, _⟩ => show r.val = 0 + r.val; omega
    | ⟨1, _⟩ => show j.val = 0 + j.val; omega)

/-- Columns 256 … 511: the output gate's. -/
theorem sliceO (v : FVec Ideal S1024x768 .f32) (r : Fin 1024) (j : Fin 256) :
    extractStridedSlice S1024x256 ![0, 256] v slices_S1024x768_o0_256_S1024x256 (ix2 r j) = v (ix2 r (⟨256 + j.val, by omega⟩ : Fin 768)) :=
  extractStridedSlice_apply ![0, 256] v slices_S1024x768_o0_256_S1024x256 (ix2 r j) (ix2 r (⟨256 + j.val, by omega⟩ : Fin 768)) (fun a => by
    match a with
    | ⟨0, _⟩ => show r.val = 0 + r.val; omega
    | ⟨1, _⟩ => show 256 + j.val = 256 + j.val; rfl)

/-- Columns 512 … 767: the update's. -/
theorem sliceU (v : FVec Ideal S1024x768 .f32) (r : Fin 1024) (j : Fin 256) :
    extractStridedSlice S1024x256 ![0, 512] v slices_S1024x768_o0_512_S1024x256 (ix2 r j) = v (ix2 r (⟨512 + j.val, by omega⟩ : Fin 768)) :=
  extractStridedSlice_apply ![0, 512] v slices_S1024x768_o0_512_S1024x256 (ix2 r j) (ix2 r (⟨512 + j.val, by omega⟩ : Fin 768)) (fun a => by
    match a with
    | ⟨0, _⟩ => show r.val = 0 + r.val; omega
    | ⟨1, _⟩ => show 512 + j.val = 512 + j.val; rfl)

/-! ## A [1024, 256] value stored as one [1, 1024, 256] slot -/

theorem asSlot (v : FVec Ideal S1024x256 .f32) (r : Fin 1024) (j : Fin 256) :
    shapeCast S1x1024x256 v shapeCasts_S1024x256_S1x1024x256 (ix3 (0 : Fin 1) r j) = v (ix2 r j) := by
  refine (shapeCast_addUnit_apply ![1024, 256] v shapeCasts_S1024x256_S1x1024x256 (ix3 (0 : Fin 1) r j)).trans ?_
  exact congrArg v (funext fun a => by
    match a with
    | ⟨0, _⟩ => rfl
    | ⟨1, _⟩ => rfl)

/-! ## The result buffer, written slot 0 first and slot 1 last -/

/-- Slot 1 holds what the last store wrote. -/
theorem slot1 (p1 p0 : Vec Ideal S1x1024x256 .f32) (r : Fin 1024) (j : Fin 256) :
    View.canon ([⟨r0_12, p1⟩, ⟨r0_11, p0⟩] : List (View.Piece (Elt Ideal) S2x1024x256 .f32)) (ix3 (1 : Fin 2) r j)
      = p1 (ix3 (0 : Fin 1) r j) := by
  have e : (ix3 (1 : Fin 2) r j : S2x1024x256.Idx) = r0_12.emb (ix3 (0 : Fin 1) r j) := funext fun a => Fin.ext (by
    match a with
    | ⟨0, _⟩ => show 1 = 1 + 1 * 0; rfl
    | ⟨1, _⟩ => show r.val = 0 + 1 * r.val; omega
    | ⟨2, _⟩ => show j.val = 0 + 1 * j.val; omega)
  exact (congrArg _ e).trans (View.canon_cons_emb r0_12 p1 _ (ix3 (0 : Fin 1) r j))

/-- Slot 0 is outside the last store's rectangle and holds what the first store wrote. -/
theorem slot0 (p1 p0 : Vec Ideal S1x1024x256 .f32) (r : Fin 1024) (j : Fin 256) :
    View.canon ([⟨r0_12, p1⟩, ⟨r0_11, p0⟩] : List (View.Piece (Elt Ideal) S2x1024x256 .f32)) (ix3 (0 : Fin 2) r j)
      = p0 (ix3 (0 : Fin 1) r j) := by
  have hout : (ix3 (0 : Fin 2) r j : S2x1024x256.Idx) ∉ r0_12.set := by
    rw [Rect.mem_set_unit]
    intro h
    have h0 := (h 0).1
    change (1 : Nat) ≤ 0 at h0
    omega
  have e : (ix3 (0 : Fin 2) r j : S2x1024x256.Idx) = r0_11.emb (ix3 (0 : Fin 1) r j) := funext fun a => Fin.ext (by
    match a with
    | ⟨0, _⟩ => show 0 = 0 + 1 * 0; rfl
    | ⟨1, _⟩ => show r.val = 0 + 1 * r.val; omega
    | ⟨2, _⟩ => show j.val = 0 + 1 * j.val; omega)
  refine (View.canon_cons_of_not_mem (⟨r0_12, p1⟩ : View.Piece (Elt Ideal) S2x1024x256 .f32) [⟨r0_11, p0⟩] hout).trans ?_
  exact (congrArg _ e).trans (View.canon_cons_emb r0_11 p0 [] (ix3 (0 : Fin 1) r j))

/-! ## Loads: a whole tile, and child a's columns of a flattened tile -/

theorem hz : (![0, 0] : Fin 2 → Nat) = fun _ => 0 := funext fun a => by fin_cases a <;> rfl

/-- Child 0's columns. -/
theorem ldChild0 (x : Vec Ideal S1024x1024 .f32) (r : Fin 1024) (k : Fin 256) : View.ld x r0_3 (ix2 r k) = x (ix2 r (col 0 k)) :=
  congrArg x (funext fun a => Fin.ext (by
    match a with
    | ⟨0, _⟩ => show 0 + 1 * r.val = r.val; omega
    | ⟨1, _⟩ => show 0 + 1 * k.val = 256 * 0 + k.val; omega))
/-- Child 1's columns. -/
theorem ldChild1 (x : Vec Ideal S1024x1024 .f32) (r : Fin 1024) (k : Fin 256) : View.ld x r0_4 (ix2 r k) = x (ix2 r (col 1 k)) :=
  congrArg x (funext fun a => Fin.ext (by
    match a with
    | ⟨0, _⟩ => show 0 + 1 * r.val = r.val; omega
    | ⟨1, _⟩ => show 256 + 1 * k.val = 256 * 1 + k.val; omega))
/-- Child 2's columns. -/
theorem ldChild2 (x : Vec Ideal S1024x1024 .f32) (r : Fin 1024) (k : Fin 256) : View.ld x r0_5 (ix2 r k) = x (ix2 r (col 2 k)) :=
  congrArg x (funext fun a => Fin.ext (by
    match a with
    | ⟨0, _⟩ => show 0 + 1 * r.val = r.val; omega
    | ⟨1, _⟩ => show 512 + 1 * k.val = 256 * 2 + k.val; omega))
/-- Child 3's columns. -/
theorem ldChild3 (x : Vec Ideal S1024x1024 .f32) (r : Fin 1024) (k : Fin 256) : View.ld x r0_6 (ix2 r k) = x (ix2 r (col 3 k)) :=
  congrArg x (funext fun a => Fin.ext (by
    match a with
    | ⟨0, _⟩ => show 0 + 1 * r.val = r.val; omega
    | ⟨1, _⟩ => show 768 + 1 * k.val = 256 * 3 + k.val; omega))

end Cert.KernelIdeal.Tile

end
-- ==== Proof.TreeCell.lean ====
/-
  One node of a child-sum tree LSTM over the extended reals, as a function of ONE row of each per-node input.

  A node has an input vector x (300 entries) and four children, child a carrying a hidden vector h a and a cell vector c a
  (256 entries each). With the affine maps  A_W,b v j = (sum over k of v k * W j k) + b j  the node computes

    forget a j = logistic (A_Wf,bWf x j + A_Uf,bUf (h a) j)            one forget gate per child
    cTilde j   = sum over the four children a of  forget a j * c a j    the gated sum of the children's cells
    hTilde k   = sum over the four children a of  h a k                 the children's hidden vectors, summed
    gates g    = A_Wiou,biou x g + A_Uiou,bUiou hTilde g                768 pre-activations: input, output, update
    cell j     = logistic (gates j) * tanh (gates (512 + j)) + cTilde j
    hidden j   = logistic (gates (256 + j)) * tanh (cell j)

  and the result stacks hidden (slot 0) over cell (slot 1). Every row of the result depends on the same row of x, h, c
  and on the weights only, which is why one function of a row describes both a whole-array evaluation and an evaluation
  tile by tile. Sums are finite sums in the extended reals, where addition is commutative and associative with no
  side condition, so nothing here needs the entries to be finite.
-/
import Idealize.ShloMosaic.PureOps.Ideal
import Idealize.ShloMosaic.Lib.ValueIdx

noncomputable section

open scoped BigOperators

namespace Cert.TreeCell

open Idealize.ShloMosaic Idealize.ShloMosaic.ValueIdx

/-- Output j of an affine map: the weights' row j against the vector, plus the bias. -/
def affine {K N : Nat} (W : Fin N → Fin K → EReal) (b : Fin N → EReal) (v : Fin K → EReal) (j : Fin N) : EReal :=
  (∑ k : Fin K, v k * W j k) + b j

/-- The cell's parameters, each weight matrix indexed (output, input) as the model stores it. -/
structure Params where
  Wiou : Fin 768 → Fin 300 → EReal
  biou : Fin 768 → EReal
  Uiou : Fin 768 → Fin 256 → EReal
  bUiou : Fin 768 → EReal
  Wf : Fin 256 → Fin 300 → EReal
  bWf : Fin 256 → EReal
  Uf : Fin 256 → Fin 256 → EReal
  bUf : Fin 256 → EReal

variable (P : Params) (x : Fin 300 → EReal) (h c : Fin 4 → Fin 256 → EReal)

/-- Child a's forget gate. -/
def forget (a : Fin 4) (j : Fin 256) : EReal :=
  Ideal.logistic (affine P.Wf P.bWf x j + affine P.Uf P.bUf (h a) j)

/-- The children's cells, each scaled by its forget gate, summed. -/
def cTilde (j : Fin 256) : EReal := ∑ a : Fin 4, forget P x h a j * c a j

/-- The children's hidden vectors, summed. -/
def hTilde (k : Fin 256) : EReal := ∑ a : Fin 4, h a k

/-- The 768 gate pre-activations. -/
def gates (g : Fin 768) : EReal := affine P.Wiou P.biou x g + affine P.Uiou P.bUiou (hTilde h) g

/-- The three 256-wide slices of the gate vector. -/
abbrev gI (j : Fin 256) : Fin 768 := ⟨j.val, by omega⟩
abbrev gO (j : Fin 256) : Fin 768 := ⟨256 + j.val, by omega⟩
abbrev gU (j : Fin 256) : Fin 768 := ⟨512 + j.val, by omega⟩

/-- The node's new cell state. -/
def cell (j : Fin 256) : EReal :=
  Ideal.logistic (gates P x h (gI j)) * Ideal.tanh (gates P x h (gU j)) + cTilde P x h c j

/-- The node's new hidden state. -/
def hidden (j : Fin 256) : EReal := Ideal.logistic (gates P x h (gO j)) * Ideal.tanh (cell P x h c j)

/-- The stacked result: slot 0 the hidden state, slot 1 the cell state. -/
def out (s : Fin 2) (j : Fin 256) : EReal := if s.val = 0 then hidden P x h c j else cell P x h c j

/-! ## The whole batch: 65536 nodes, arrays indexed by their coordinates -/

/-- The parameters read off the weight arrays. -/
def paramsOf (Wiou : (⟨2, ![768, 300]⟩ : Shape).Idx → EReal) (biou : (⟨1, ![768]⟩ : Shape).Idx → EReal)
    (Uiou : (⟨2, ![768, 256]⟩ : Shape).Idx → EReal) (bUiou : (⟨1, ![768]⟩ : Shape).Idx → EReal)
    (Wf : (⟨2, ![256, 300]⟩ : Shape).Idx → EReal) (bWf : (⟨1, ![256]⟩ : Shape).Idx → EReal)
    (Uf : (⟨2, ![256, 256]⟩ : Shape).Idx → EReal) (bUf : (⟨1, ![256]⟩ : Shape).Idx → EReal) : Params where
  Wiou g k := Wiou (ix2 g k)
  biou g := biou (ix1 g)
  Uiou g k := Uiou (ix2 g k)
  bUiou g := bUiou (ix1 g)
  Wf j k := Wf (ix2 j k)
  bWf j := bWf (ix1 j)
  Uf j k := Uf (ix2 j k)
  bUf j := bUf (ix1 j)

/-- Node n's input row. -/
def rowX (X : (⟨2, ![65536, 300]⟩ : Shape).Idx → EReal) (n : Fin 65536) : Fin 300 → EReal := fun k => X (ix2 n k)
/-- Node n's children: one 256-vector per child. -/
def rowM (M : (⟨3, ![65536, 4, 256]⟩ : Shape).Idx → EReal) (n : Fin 65536) : Fin 4 → Fin 256 → EReal :=
  fun a k => M (ix3 n a k)

/-- THE RESULT ARRAY [2, 65536, 256] of the batch, index by index. -/
def batch (X : (⟨2, ![65536, 300]⟩ : Shape).Idx → EReal) (H C : (⟨3, ![65536, 4, 256]⟩ : Shape).Idx → EReal)
    (P : Params) : (⟨3, ![2, 65536, 256]⟩ : Shape).Idx → EReal :=
  fun i => out P (rowX X (i 1)) (rowM H (i 1)) (rowM C (i 1)) (i 0) (i 2)

end Cert.TreeCell

end
-- ==== Proof.TileCell.lean ====
/-
  What one tile of 1024 nodes computes, entry by entry: the tile body's two stored values are the tree-LSTM cell's
  hidden and cell states of each row, evaluated on the tile's rows of the inputs and on the weight tiles.

  The body's arithmetic arranges the cell's sums in its own order: the four children's hidden rows are added left to
  right, the gated children's cells are accumulated into a zero one child at a time, and the gate pre-activation is
  ((x W + b) + hTilde U) + b' where the cell's formula groups (x W + b) + (hTilde U + b'). In the extended reals
  addition is associative and zero is neutral with no side condition, and a sum over the four children is the four
  terms added left to right, so the two arrangements agree term for term; no entry needs to be finite.
-/
import proofs.«119210_j22351009808691_2_alg».proof.Proof.TileOps
import proofs.«119210_j22351009808691_2_alg».proof.Proof.TreeCell

noncomputable section

open scoped BigOperators

namespace Cert.KernelIdeal.Tile

open Idealize.ShloMosaic Idealize.ShloMosaic.ValueIdx Cert.KernelIdeal Cert.KernelIdeal.Gen Cert.TreeCell

/-! ## The body's named values at an entry, over any loaded tiles -/

/-- A loaded [1024, 256] tile re-cast to its own shape reads itself. -/
theorem sc256 (v : Vec Ideal S1024x256 .f32) (i : S1024x256.Idx) :
    (shapeCast S1024x256 v shapeCasts_S1024x256_S1024x256 : FVec Ideal S1024x256 .f32) i = v i :=
  congrFun (shapeCast_self v shapeCasts_S1024x256_S1024x256) i

/-- The input rows narrowed for the product read the rows. -/
theorem pay2_apply (v0 : Vec Ideal S1024x300 .f32) (i : S1024x300.Idx) : k0_pay2 v0 i = v0 i := rfl

/-- A child's hidden rows narrowed for the product read the rows. -/
theorem pay8_apply (v69 : Vec Ideal S1024x256 .f32) (i : S1024x256.Idx) : k0_pay8 v69 i = v69 i := by
  unfold k0_pay8; exact sc256 v69 i

/-- x W_f + b_Wf. -/
theorem pay3_apply (v0 : Vec Ideal S1024x300 .f32) (v2 : Vec Ideal S300x256 .bf16) (v5 : Vec Ideal S1x256 .f32)
    (r : Fin 1024) (j : Fin 256) :
    k0_pay3 v0 v2 v5 (ix2 r j) = (∑ k : Fin 300, v0 (ix2 r k) * v2 (ix2 k j)) + v5 (ix2 (0 : Fin 1) j) := by
  unfold k0_pay3
  exact congrArg₂ (· + ·) (dot300x256 (k0_pay2 v0) v2 r j) (biasRow256 v5 r j)

/-- The four children's hidden rows, added left to right. -/
theorem pay4_apply (v9 v11 v13 v15 : Vec Ideal S1024x256 .f32) (i : S1024x256.Idx) :
    k0_pay4 v9 v11 v13 v15 i = v9 i + v11 i + v13 i + v15 i := by
  unfold k0_pay4
  exact congrArg₂ (· + ·) (congrArg₂ (· + ·) (congrArg₂ (· + ·) (sc256 v9 i) (sc256 v11 i)) (sc256 v13 i)) (sc256 v15 i)

/-- The accumulator the gated cells are added into starts at zero. -/
theorem pay5_apply (i : S1024x256.Idx) : k0_pay5 (F := Ideal) i = 0 := by
  unfold k0_pay5
  exact Ideal.ofBits_zero_f32

/-- ONE CHILD'S FORGET GATE at (r, j): logistic of wx plus the child's hidden row against U_f plus b_Uf. -/
theorem gate_apply {φ : FTy} (wx : FVec Ideal S1024x256 .f32) (l : FVec Ideal S1024x256 φ) (u : Vec Ideal S256x256 .bf16)
    (b : Vec Ideal S1x256 .f32) (r : Fin 1024) (j : Fin 256) :
    logistic (addf wx (addf (matmul dot_S1024x256_S256x256_S1024x256_1_0_0_1_n_n none l
        (shapeCast S256x256 u shapeCasts_S256x256_S256x256 : FVec Ideal S256x256 .bf16) (constant S1024x256 .f32 0x00000000#32))
      (broadcastTo S1024x256 (shapeCast S1x256 b shapeCasts_S1x256_S1x256) broadcasts_S1x256_S1024x256))) (ix2 r j)
      = Ideal.logistic (wx (ix2 r j) + ((∑ k : Fin 256, l (ix2 r k) * u (ix2 k j)) + b (ix2 (0 : Fin 1) j))) :=
  congrArg Ideal.logistic (congrArg (wx (ix2 r j) + ·) (congrArg₂ (· + ·) (dot256x256 l u r j) (biasRow256 b r j)))

/-- A child's hidden rows re-cast and narrowed read the rows (what the gate's product takes them as). -/
theorem narrowed (hk : Vec Ideal S1024x256 .f32) (i : S1024x256.Idx) :
    (truncf .bf16 (shapeCast S1024x256 hk shapeCasts_S1024x256_S1024x256 : FVec Ideal S1024x256 .f32) bitsLt_bf16_f32 : FVec Ideal S1024x256 .bf16) i = hk i :=
  sc256 hk i

/-- Child 0's forget gate. -/
theorem pay6_apply (v0 : Vec Ideal S1024x300 .f32) (v2 : Vec Ideal S300x256 .bf16) (v5 : Vec Ideal S1x256 .f32)
    (v21 : Vec Ideal S1024x256 .f32) (v24 : Vec Ideal S256x256 .bf16) (v27 : Vec Ideal S1x256 .f32) (r : Fin 1024) (j : Fin 256) :
    k0_pay6 v0 v2 v5 v21 v24 v27 (ix2 r j)
      = Ideal.logistic (k0_pay3 v0 v2 v5 (ix2 r j) + ((∑ k : Fin 256, v21 (ix2 r k) * v24 (ix2 k j)) + v27 (ix2 (0 : Fin 1) j))) := by
  unfold k0_pay6
  refine (gate_apply (k0_pay3 v0 v2 v5) _ v24 v27 r j).trans ?_
  simp only [narrowed]

/-- The gated cells of children 0, 1, 2 accumulated into the start value. -/
theorem pay7_apply (v8 v20 v32 : FVec Ideal S1024x256 .f32) (v33 v37 : Vec Ideal S1024x256 .f32) (v40 : Vec Ideal S256x256 .bf16)
    (v43 : Vec Ideal S1x256 .f32) (v49 v53 : Vec Ideal S1024x256 .f32) (v56 : Vec Ideal S256x256 .bf16) (v59 : Vec Ideal S1x256 .f32)
    (v65 : Vec Ideal S1024x256 .f32) (r : Fin 1024) (j : Fin 256) :
    k0_pay7 v8 v20 v32 v33 v37 v40 v43 v49 v53 v56 v59 v65 (ix2 r j)
      = ((v20 (ix2 r j) + v32 (ix2 r j) * v33 (ix2 r j))
          + Ideal.logistic (v8 (ix2 r j) + ((∑ k : Fin 256, v37 (ix2 r k) * v40 (ix2 k j)) + v43 (ix2 (0 : Fin 1) j))) * v49 (ix2 r j))
        + Ideal.logistic (v8 (ix2 r j) + ((∑ k : Fin 256, v53 (ix2 r k) * v56 (ix2 k j)) + v59 (ix2 (0 : Fin 1) j))) * v65 (ix2 r j) := by
  unfold k0_pay7
  refine congrArg₂ (· + ·) (congrArg₂ (· + ·) (congrArg (v20 (ix2 r j) + ·) (congrArg (v32 (ix2 r j) * ·) (sc256 v33 _))) ?_) ?_
  · refine congrArg₂ (· * ·) ((gate_apply v8 _ v40 v43 r j).trans ?_) (sc256 v49 _)
    simp only [narrowed]
  · refine congrArg₂ (· * ·) ((gate_apply v8 _ v56 v59 r j).trans ?_) (sc256 v65 _)
    simp only [narrowed]

/-- THE 768 GATE PRE-ACTIVATIONS at (r, g): ((x W_iou + b_iou) + hTilde U_iou) + b_Uiou. -/
theorem pay9_apply (v1 : FVec Ideal S1024x300 .bf16) (v19 : FVec Ideal S1024x256 .f32) (v85 : Vec Ideal S300x768 .bf16)
    (v88 : Vec Ideal S1x768 .f32) (v93 : Vec Ideal S256x768 .bf16) (v97 : Vec Ideal S1x768 .f32) (r : Fin 1024) (g : Fin 768) :
    k0_pay9 v1 v19 v85 v88 v93 v97 (ix2 r g)
      = (((∑ k : Fin 300, v1 (ix2 r k) * v85 (ix2 k g)) + v88 (ix2 (0 : Fin 1) g))
          + ∑ k : Fin 256, v19 (ix2 r k) * v93 (ix2 k g)) + v97 (ix2 (0 : Fin 1) g) := by
  unfold k0_pay9
  exact congrArg₂ (· + ·) (congrArg₂ (· + ·) (congrArg₂ (· + ·) (dot300x768 v1 v85 r g) (biasRow768 v88 r g))
    (dot256x768 (truncf .bf16 v19 bitsLt_bf16_f32) v93 r g)) (biasRow768 v97 r g)

/-- THE NEW CELL STATE at (r, j): input gate times update, plus the accumulated cells with child 3's added last. -/
theorem pay10_apply (v1 : FVec Ideal S1024x300 .bf16) (v8 v19 v68 : FVec Ideal S1024x256 .f32) (v71 : FVec Ideal S1024x256 .bf16)
    (v72 : Vec Ideal S256x256 .bf16) (v75 : Vec Ideal S1x256 .f32) (v81 : Vec Ideal S1024x256 .f32) (v85 : Vec Ideal S300x768 .bf16)
    (v88 : Vec Ideal S1x768 .f32) (v93 : Vec Ideal S256x768 .bf16) (v97 : Vec Ideal S1x768 .f32) (r : Fin 1024) (j : Fin 256) :
    k0_pay10 v1 v8 v19 v68 v71 v72 v75 v81 v85 v88 v93 v97 (ix2 r j)
      = Ideal.logistic (k0_pay9 v1 v19 v85 v88 v93 v97 (ix2 r (gI j))) * Ideal.tanh (k0_pay9 v1 v19 v85 v88 v93 v97 (ix2 r (gU j)))
        + (v68 (ix2 r j)
          + Ideal.logistic (v8 (ix2 r j) + ((∑ k : Fin 256, v71 (ix2 r k) * v72 (ix2 k j)) + v75 (ix2 (0 : Fin 1) j))) * v81 (ix2 r j)) := by
  unfold k0_pay10
  refine congrArg₂ (· + ·) (congrArg₂ (· * ·) (congrArg Ideal.logistic (sliceI _ r j)) (congrArg Ideal.tanh (sliceU _ r j))) ?_
  exact congrArg (v68 (ix2 r j) + ·) (congrArg₂ (· * ·) (gate_apply v8 v71 v72 v75 r j) (sc256 v81 _))

/-- THE NEW HIDDEN STATE, as slot 0 stores it, at (0, r, j): output gate times tanh of the new cell state. -/
theorem pay11_apply (v1 : FVec Ideal S1024x300 .bf16) (v8 v19 v68 : FVec Ideal S1024x256 .f32) (v71 : FVec Ideal S1024x256 .bf16)
    (v72 : Vec Ideal S256x256 .bf16) (v75 : Vec Ideal S1x256 .f32) (v81 : Vec Ideal S1024x256 .f32) (v85 : Vec Ideal S300x768 .bf16)
    (v88 : Vec Ideal S1x768 .f32) (v93 : Vec Ideal S256x768 .bf16) (v97 : Vec Ideal S1x768 .f32) (r : Fin 1024) (j : Fin 256) :
    k0_pay11 v1 v8 v19 v68 v71 v72 v75 v81 v85 v88 v93 v97 (ix3 (0 : Fin 1) r j)
      = Ideal.logistic (k0_pay9 v1 v19 v85 v88 v93 v97 (ix2 r (gO j)))
        * Ideal.tanh (k0_pay10 v1 v8 v19 v68 v71 v72 v75 v81 v85 v88 v93 v97 (ix2 r j)) := by
  unfold k0_pay11
  refine (asSlot _ r j).trans ?_
  exact congrArg₂ (· * ·) (congrArg Ideal.logistic (sliceO _ r j)) rfl

/-- The new cell state, as slot 1 stores it, at (0, r, j). -/
theorem pay1_apply (v108 : FVec Ideal S1024x256 .f32) (r : Fin 1024) (j : Fin 256) :
    k0_pay1 v108 (ix3 (0 : Fin 1) r j) = v108 (ix2 r j) := by
  unfold k0_pay1
  exact asSlot v108 r j

end Cert.KernelIdeal.Tile

end
-- ==== Proof.TileResult.lean ====
/-
  The tile body's stored result is the cell's output for each row of the tile.

  Given that row r of the input tile is a node's input x, that child a's 256 columns of row r of the two flattened
  children tiles are the node's h a and c a, and that the weight tiles hold the cell's parameters transposed
  (entry (k, j) of a weight tile is W j k; a bias tile's one row is the bias), entry (slot, r, j) of what the body leaves
  in the tile's result buffer is the cell's output (slot, j) for that node.
-/
import proofs.«119210_j22351009808691_2_alg».proof.Proof.TileCell

noncomputable section

open scoped BigOperators

namespace Cert.KernelIdeal.Tile

open Idealize.ShloMosaic Idealize.ShloMosaic.ValueIdx Cert.KernelIdeal Cert.KernelIdeal.Gen Cert.TreeCell

/-- Row r of the loaded tiles is one node's data and the weight tiles are the cell's parameters. -/
structure Reads (P : Params) (x : Fin 300 → EReal) (h c : Fin 4 → Fin 256 → EReal) (r : Fin 1024)
    (x0 : Vec Ideal S1024x300 .f32) (H0 H1 H2 H3 C0 C1 C2 C3 : Vec Ideal S1024x256 .f32)
    (x3 : Vec Ideal S300x256 .bf16) (x4 : Vec Ideal S1x256 .f32) (x5 : Vec Ideal S256x256 .bf16) (x6 : Vec Ideal S1x256 .f32)
    (x7 : Vec Ideal S300x768 .bf16) (x8 : Vec Ideal S1x768 .f32) (x9 : Vec Ideal S256x768 .bf16) (x10 : Vec Ideal S1x768 .f32) : Prop where
  hx : ∀ k, x0 (ix2 r k) = x k
  hH0 : ∀ k, H0 (ix2 r k) = h 0 k
  hH1 : ∀ k, H1 (ix2 r k) = h 1 k
  hH2 : ∀ k, H2 (ix2 r k) = h 2 k
  hH3 : ∀ k, H3 (ix2 r k) = h 3 k
  hC0 : ∀ j, C0 (ix2 r j) = c 0 j
  hC1 : ∀ j, C1 (ix2 r j) = c 1 j
  hC2 : ∀ j, C2 (ix2 r j) = c 2 j
  hC3 : ∀ j, C3 (ix2 r j) = c 3 j
  hWf : ∀ j k, x3 (ix2 k j) = P.Wf j k
  hbWf : ∀ j, x4 (ix2 (0 : Fin 1) j) = P.bWf j
  hUf : ∀ j k, x5 (ix2 k j) = P.Uf j k
  hbUf : ∀ j, x6 (ix2 (0 : Fin 1) j) = P.bUf j
  hWiou : ∀ g k, x7 (ix2 k g) = P.Wiou g k
  hbiou : ∀ g, x8 (ix2 (0 : Fin 1) g) = P.biou g
  hUiou : ∀ g k, x9 (ix2 k g) = P.Uiou g k
  hbUiou : ∀ g, x10 (ix2 (0 : Fin 1) g) = P.bUiou g

section
variable {P : Params} {x : Fin 300 → EReal} {h c : Fin 4 → Fin 256 → EReal} {r : Fin 1024}
  {x0 : Vec Ideal S1024x300 .f32} {H0 H1 H2 H3 C0 C1 C2 C3 : Vec Ideal S1024x256 .f32}
  {x3 : Vec Ideal S300x256 .bf16} {x4 : Vec Ideal S1x256 .f32} {x5 : Vec Ideal S256x256 .bf16} {x6 : Vec Ideal S1x256 .f32}
  {x7 : Vec Ideal S300x768 .bf16} {x8 : Vec Ideal S1x768 .f32} {x9 : Vec Ideal S256x768 .bf16} {x10 : Vec Ideal S1x768 .f32}
  (R : Reads P x h c r x0 H0 H1 H2 H3 C0 C1 C2 C3 x3 x4 x5 x6 x7 x8 x9 x10)
include R

/-- x W_f + b_Wf of the row is the cell's affine map of x. -/
theorem wx_eq (j : Fin 256) : k0_pay3 x0 x3 x4 (ix2 r j) = affine P.Wf P.bWf x j := by
  rw [pay3_apply]
  unfold affine
  simp only [R.hx, R.hWf, R.hbWf]

/-- A child's forget gate, from any tile whose row r is the child's hidden vector. -/
theorem forget_eq (a : Fin 4) (Ha : S1024x256.Idx → EReal) (hHa : ∀ k, Ha (ix2 r k) = h a k) (j : Fin 256) :
    Ideal.logistic (k0_pay3 x0 x3 x4 (ix2 r j) + ((∑ k : Fin 256, Ha (ix2 r k) * x5 (ix2 k j)) + x6 (ix2 (0 : Fin 1) j)))
      = forget P x h a j := by
  rw [wx_eq R]
  unfold forget affine
  simp only [hHa, R.hUf, R.hbUf]

/-- The children's hidden rows added left to right are their sum. -/
theorem hsum_eq (k : Fin 256) : k0_pay4 H0 H1 H2 H3 (ix2 r k) = hTilde h k := by
  rw [pay4_apply, R.hH0, R.hH1, R.hH2, R.hH3]
  unfold hTilde
  rw [Fin.sum_univ_four]

/-- The gate pre-activations: the body's grouping ((a + b) + u) + b' is the cell's (a + b) + (u + b'). -/
theorem gates_eq (g : Fin 768) : k0_pay9 (k0_pay2 x0) (k0_pay4 H0 H1 H2 H3) x7 x8 x9 x10 (ix2 r g) = gates P x h g := by
  rw [pay9_apply]
  unfold gates affine
  simp only [pay2_apply, R.hx, R.hWiou, R.hbiou, R.hUiou, R.hbUiou, hsum_eq R]
  rw [add_assoc]

/-- Children 0, 1, 2's gated cells accumulated into zero. -/
theorem acc3_eq (j : Fin 256) :
    k0_pay7 (k0_pay3 x0 x3 x4) (k0_pay5 (F := Ideal)) (k0_pay6 x0 x3 x4 H0 x5 x6) C0 H1 x5 x6 C1 H2 x5 x6 C2 (ix2 r j)
      = forget P x h 0 j * c 0 j + forget P x h 1 j * c 1 j + forget P x h 2 j * c 2 j := by
  rw [pay7_apply, pay5_apply, zero_add, pay6_apply, forget_eq R 0 H0 R.hH0, forget_eq R 1 H1 R.hH1, forget_eq R 2 H2 R.hH2,
    R.hC0, R.hC1, R.hC2]

/-- THE NEW CELL STATE of row r. -/
theorem cell_eq (j : Fin 256) :
    k0_pay10 (k0_pay2 x0) (k0_pay3 x0 x3 x4) (k0_pay4 H0 H1 H2 H3)
        (k0_pay7 (k0_pay3 x0 x3 x4) (k0_pay5 (F := Ideal)) (k0_pay6 x0 x3 x4 H0 x5 x6) C0 H1 x5 x6 C1 H2 x5 x6 C2)
        (k0_pay8 H3) x5 x6 C3 x7 x8 x9 x10 (ix2 r j)
      = cell P x h c j := by
  rw [pay10_apply, gates_eq R, gates_eq R, acc3_eq R,
    forget_eq R 3 (k0_pay8 H3) (fun k => (pay8_apply H3 _).trans (R.hH3 k)), R.hC3]
  unfold cell cTilde
  rw [Fin.sum_univ_four]

/-- THE NEW HIDDEN STATE of row r, as slot 0 stores it. -/
theorem hidden_eq (j : Fin 256) :
    k0_pay11 (k0_pay2 x0) (k0_pay3 x0 x3 x4) (k0_pay4 H0 H1 H2 H3)
        (k0_pay7 (k0_pay3 x0 x3 x4) (k0_pay5 (F := Ideal)) (k0_pay6 x0 x3 x4 H0 x5 x6) C0 H1 x5 x6 C1 H2 x5 x6 C2)
        (k0_pay8 H3) x5 x6 C3 x7 x8 x9 x10 (ix3 (0 : Fin 1) r j)
      = hidden P x h c j := by
  rw [pay11_apply, gates_eq R, cell_eq R]
  rfl

end

/-- WHAT THE BODY LEAVES IN THE TILE'S RESULT BUFFER at (s, r, j): the cell's output (s, j) of the node in row r. -/
theorem tile_out (P : Params) (x : Fin 300 → EReal) (h c : Fin 4 → Fin 256 → EReal) (r : Fin 1024)
    (x0 : Vec Ideal S1024x300 .f32) (x1 x2 : Vec Ideal S1024x1024 .f32) (x3 : Vec Ideal S300x256 .bf16) (x4 : Vec Ideal S1x256 .f32)
    (x5 : Vec Ideal S256x256 .bf16) (x6 : Vec Ideal S1x256 .f32) (x7 : Vec Ideal S300x768 .bf16) (x8 : Vec Ideal S1x768 .f32)
    (x9 : Vec Ideal S256x768 .bf16) (x10 : Vec Ideal S1x768 .f32)
    (hx : ∀ k, x0 (ix2 r k) = x k) (hh : ∀ a k, x1 (ix2 r (col a k)) = h a k) (hc : ∀ a k, x2 (ix2 r (col a k)) = c a k)
    (hWf : ∀ j k, x3 (ix2 k j) = P.Wf j k) (hbWf : ∀ j, x4 (ix2 (0 : Fin 1) j) = P.bWf j)
    (hUf : ∀ j k, x5 (ix2 k j) = P.Uf j k) (hbUf : ∀ j, x6 (ix2 (0 : Fin 1) j) = P.bUf j)
    (hWiou : ∀ g k, x7 (ix2 k g) = P.Wiou g k) (hbiou : ∀ g, x8 (ix2 (0 : Fin 1) g) = P.biou g)
    (hUiou : ∀ g k, x9 (ix2 k g) = P.Uiou g k) (hbUiou : ∀ g, x10 (ix2 (0 : Fin 1) g) = P.bUiou g)
    (s : Fin 2) (j : Fin 256) :
    out0_11 x0 x1 x2 x3 x4 x5 x6 x7 x8 x9 x10 (ix3 s r j) = out P x h c s j := by
  have R : Reads P x h c r (View.ld x0 r0_0) (View.ld x1 r0_3) (View.ld x1 r0_4) (View.ld x1 r0_5) (View.ld x1 r0_6)
      (View.ld x2 r0_3) (View.ld x2 r0_4) (View.ld x2 r0_5) (View.ld x2 r0_6)
      (View.ld x3 r0_1) (View.ld x4 r0_2) (View.ld x5 r0_7) (View.ld x6 r0_2) (View.ld x7 r0_8) (View.ld x8 r0_9)
      (View.ld x9 r0_10) (View.ld x10 r0_9) :=
    { hx := fun k => (congrFun (View.ld_unit_zero (S := S1024x300) hz _ x0) _).trans (hx k)
      hH0 := fun k => (ldChild0 x1 r k).trans (hh 0 k)
      hH1 := fun k => (ldChild1 x1 r k).trans (hh 1 k)
      hH2 := fun k => (ldChild2 x1 r k).trans (hh 2 k)
      hH3 := fun k => (ldChild3 x1 r k).trans (hh 3 k)
      hC0 := fun k => (ldChild0 x2 r k).trans (hc 0 k)
      hC1 := fun k => (ldChild1 x2 r k).trans (hc 1 k)
      hC2 := fun k => (ldChild2 x2 r k).trans (hc 2 k)
      hC3 := fun k => (ldChild3 x2 r k).trans (hc 3 k)
      hWf := fun j k => (congrFun (View.ld_unit_zero (S := S300x256) hz _ x3) _).trans (hWf j k)
      hbWf := fun j => (congrFun (View.ld_unit_zero (S := S1x256) hz _ x4) _).trans (hbWf j)
      hUf := fun j k => (congrFun (View.ld_unit_zero (S := S256x256) hz _ x5) _).trans (hUf j k)
      hbUf := fun j => (congrFun (View.ld_unit_zero (S := S1x256) hz _ x6) _).trans (hbUf j)
      hWiou := fun g k => (congrFun (View.ld_unit_zero (S := S300x768) hz _ x7) _).trans (hWiou g k)
      hbiou := fun g => (congrFun (View.ld_unit_zero (S := S1x768) hz _ x8) _).trans (hbiou g)
      hUiou := fun g k => (congrFun (View.ld_unit_zero (S := S256x768) hz _ x9) _).trans (hUiou g k)
      hbUiou := fun g => (congrFun (View.ld_unit_zero (S := S1x768) hz _ x10) _).trans (hbUiou g) }
  unfold out0_11
  match s with
  | ⟨0, _⟩ =>
    refine (slot0 _ _ r j).trans ?_
    exact (hidden_eq R j).trans (if_pos rfl).symm
  | ⟨1, _⟩ =>
    refine (slot1 _ _ r j).trans ((pay1_apply _ r j).trans ?_)
    exact (cell_eq R j).trans (if_neg Nat.one_ne_zero).symm

end Cert.KernelIdeal.Tile

end
-- ==== Proof.Staged.lean ====
/-
  The arrays the tiled region is launched on, as functions of the argument arrays, and each read at an entry.

  Before the region the children's hidden and cell arrays [65536, 4, 256] are flattened to [65536, 1024] (entry
  (n, 256 a + k) is entry (n, a, k): same row-major position), each weight matrix is transposed (entry (k, j) of the
  transposed matrix is entry (j, k)) and narrowed (the identity on extended reals), and each bias vector [n] becomes a
  row [1, n].
-/
import proofs.«119210_j22351009808691_2_alg».proof.Proof.Gen.KernelIdeal.Frame
import proofs.«119210_j22351009808691_2_alg».proof.Proof.TileOps
import Idealize.ShloMosaic.Lib.StableHlo.Run
import Idealize.ShloMosaic.Lib.Pipeline.Value
import Idealize.ShloMosaic.Lib.ValueIdx

noncomputable section

namespace Cert.KernelIdeal.Staged

open Idealize.ShloMosaic Idealize.ShloMosaic.TcCoe Idealize.ShloMosaic.ValueIdx Idealize.SL.Sem Cert.KernelIdeal Cert.KernelIdeal.Gen
open Cert.KernelIdeal.Tile (col)

variable (m : (ℓ : Loc nD τ sig) → Buf (Elt Ideal) ℓ)

/-! ## The staged arrays as terms of the arguments -/

/-- The children's hidden vectors, flattened. -/
theorem flatH (c : Dev nD) : (V m c main_v0 : S65536x1024.Idx → EReal)
    = shapeCast S65536x1024 (m ((c : Thread nD τ).loc main_arg1)) shapeCasts_S65536x4x256_S65536x1024 := by
  dsimp only [Gen.V, Gen.hostOps0]; after_results; rfl

/-- The children's cell vectors, flattened. -/
theorem flatC (c : Dev nD) : (V m c main_v1 : S65536x1024.Idx → EReal)
    = shapeCast S65536x1024 (m ((c : Thread nD τ).loc main_arg2)) shapeCasts_S65536x4x256_S65536x1024 := by
  dsimp only [Gen.V, Gen.hostOps0]; after_results; rfl

/-- W_f transposed and narrowed. -/
theorem wfT (c : Dev nD) : (V m c main_v3 : S300x256.Idx → EReal)
    = (truncf .bf16 (transpose S300x256 [1, 0] ((m ((c : Thread nD τ).loc main_arg7)) : FVec Ideal S256x300 .f32) transposes_S256x300_S300x256_1_0 : FVec Ideal S300x256 .f32) bitsLt_bf16_f32 : FVec Ideal S300x256 .bf16) := by
  dsimp only [Gen.V, Gen.hostOps0]; after_results

/-- U_f transposed and narrowed. -/
theorem ufT (c : Dev nD) : (V m c main_v5 : S256x256.Idx → EReal)
    = (truncf .bf16 (transpose S256x256 [1, 0] ((m ((c : Thread nD τ).loc main_arg9)) : FVec Ideal S256x256 .f32) transposes_S256x256_S256x256_1_0 : FVec Ideal S256x256 .f32) bitsLt_bf16_f32 : FVec Ideal S256x256 .bf16) := by
  dsimp only [Gen.V, Gen.hostOps0]; after_results

/-- W_iou transposed and narrowed. -/
theorem wiouT (c : Dev nD) : (V m c main_v7 : S300x768.Idx → EReal)
    = (truncf .bf16 (transpose S300x768 [1, 0] ((m ((c : Thread nD τ).loc main_arg3)) : FVec Ideal S768x300 .f32) transposes_S768x300_S300x768_1_0 : FVec Ideal S300x768 .f32) bitsLt_bf16_f32 : FVec Ideal S300x768 .bf16) := by
  dsimp only [Gen.V, Gen.hostOps0]; after_results

/-- U_iou transposed and narrowed. -/
theorem uiouT (c : Dev nD) : (V m c main_v9 : S256x768.Idx → EReal)
    = (truncf .bf16 (transpose S256x768 [1, 0] ((m ((c : Thread nD τ).loc main_arg5)) : FVec Ideal S768x256 .f32) transposes_S768x256_S256x768_1_0 : FVec Ideal S256x768 .f32) bitsLt_bf16_f32 : FVec Ideal S256x768 .bf16) := by
  dsimp only [Gen.V, Gen.hostOps0]; after_results

/-- b_Wf as a row. -/
theorem bWfRow (c : Dev nD) : (V m c main_v10 : S1x256.Idx → EReal)
    = shapeCast S1x256 (m ((c : Thread nD τ).loc main_arg8)) shapeCasts_S256_S1x256 := by
  dsimp only [Gen.V, Gen.hostOps0]; after_results; rfl

/-- b_Uf as a row. -/
theorem bUfRow (c : Dev nD) : (V m c main_v11 : S1x256.Idx → EReal)
    = shapeCast S1x256 (m ((c : Thread nD τ).loc main_arg10)) shapeCasts_S256_S1x256 := by
  dsimp only [Gen.V, Gen.hostOps0]; after_results; rfl

/-- b_iou as a row. -/
theorem biouRow (c : Dev nD) : (V m c main_v12 : S1x768.Idx → EReal)
    = shapeCast S1x768 (m ((c : Thread nD τ).loc main_arg4)) shapeCasts_S768_S1x768 := by
  dsimp only [Gen.V, Gen.hostOps0]; after_results; rfl

/-- b_Uiou as a row. -/
theorem bUiouRow (c : Dev nD) : (V m c main_v13 : S1x768.Idx → EReal)
    = shapeCast S1x768 (m ((c : Thread nD τ).loc main_arg6)) shapeCasts_S768_S1x768 := by
  dsimp only [Gen.V, Gen.hostOps0]; after_results; rfl

/-! ## Read at an entry -/

/-- A flattened children array at (n, 256 a + k) is the array at (n, a, k). -/
theorem flat_apply (M : S65536x4x256.Idx → EReal) (n : Fin 65536) (a : Fin 4) (k : Fin 256) :
    shapeCast S65536x1024 M shapeCasts_S65536x4x256_S65536x1024 (ix2 n (col a k)) = M (ix3 n a k) :=
  shapeCast_apply M shapeCasts_S65536x4x256_S65536x1024 (ix2 n (col a k)) (ix3 n a k) (by
    rw [Shape.rowMajor_val_three, Shape.rowMajor_val_two]
    show (n.val * 4 + a.val) * 256 + k.val = n.val * 1024 + (256 * a.val + k.val)
    omega)

/-- A bias vector viewed as a row, at (0, j), is the bias at j. -/
theorem row256_apply (b : S256.Idx → EReal) (j : Fin 256) :
    shapeCast S1x256 b shapeCasts_S256_S1x256 (ix2 (0 : Fin 1) j) = b (ix1 j) :=
  shapeCast_apply b shapeCasts_S256_S1x256 (ix2 (0 : Fin 1) j) (ix1 j) (by
    rw [Shape.rowMajor_val_one, Shape.rowMajor_val_two]
    show j.val = 0 * 256 + j.val
    omega)

theorem row768_apply (b : S768.Idx → EReal) (g : Fin 768) :
    shapeCast S1x768 b shapeCasts_S768_S1x768 (ix2 (0 : Fin 1) g) = b (ix1 g) :=
  shapeCast_apply b shapeCasts_S768_S1x768 (ix2 (0 : Fin 1) g) (ix1 g) (by
    rw [Shape.rowMajor_val_one, Shape.rowMajor_val_two]
    show g.val = 0 * 768 + g.val
    omega)

/-- A transposed matrix at (k, j) is the matrix at (j, k): the four weight matrices. -/
theorem wfT_apply (W : S256x300.Idx → EReal) (k : Fin 300) (j : Fin 256) :
    transpose S300x256 [1, 0] W transposes_S256x300_S300x256_1_0 (ix2 k j) = W (ix2 j k) :=
  transpose_apply [1, 0] W transposes_S256x300_S300x256_1_0 (ix2 k j) (ix2 j k) (fun b => by
    match b with | ⟨0, _⟩ => rfl | ⟨1, _⟩ => rfl)
theorem ufT_apply (W : S256x256.Idx → EReal) (k : Fin 256) (j : Fin 256) :
    transpose S256x256 [1, 0] W transposes_S256x256_S256x256_1_0 (ix2 k j) = W (ix2 j k) :=
  transpose_apply [1, 0] W transposes_S256x256_S256x256_1_0 (ix2 k j) (ix2 j k) (fun b => by
    match b with | ⟨0, _⟩ => rfl | ⟨1, _⟩ => rfl)
theorem wiouT_apply (W : S768x300.Idx → EReal) (k : Fin 300) (g : Fin 768) :
    transpose S300x768 [1, 0] W transposes_S768x300_S300x768_1_0 (ix2 k g) = W (ix2 g k) :=
  transpose_apply [1, 0] W transposes_S768x300_S300x768_1_0 (ix2 k g) (ix2 g k) (fun b => by
    match b with | ⟨0, _⟩ => rfl | ⟨1, _⟩ => rfl)
theorem uiouT_apply (W : S768x256.Idx → EReal) (k : Fin 256) (g : Fin 768) :
    transpose S256x768 [1, 0] W transposes_S768x256_S256x768_1_0 (ix2 k g) = W (ix2 g k) :=
  transpose_apply [1, 0] W transposes_S768x256_S256x768_1_0 (ix2 k g) (ix2 g k) (fun b => by
    match b with | ⟨0, _⟩ => rfl | ⟨1, _⟩ => rfl)

end Cert.KernelIdeal.Staged

end
-- ==== Proof.WholeArray.lean ====
/-
  The whole result array of the tiled evaluation: tile t covers nodes 1024 t … 1024 t + 1023, every tile writes the
  cell's output for its own nodes, and the 64 tiles cover all 65536 nodes; so after the run the result array is the
  batch of cells of the argument arrays, whatever it held before.
-/
import proofs.«119210_j22351009808691_2_alg».proof.Proof.Gen.KernelIdeal.Value
import proofs.«119210_j22351009808691_2_alg».proof.Proof.TileResult
import proofs.«119210_j22351009808691_2_alg».proof.Proof.Staged

noncomputable section

namespace Cert.KernelIdeal.CellValue

open Idealize.ShloMosaic Idealize.ShloMosaic.TcCoe Idealize.ShloMosaic.ValueIdx Idealize.SL.Sem Cert.KernelIdeal Cert.KernelIdeal.Gen
open Idealize.ShloMosaic.Pipeline (Dat)
open Cert.TreeCell Cert.KernelIdeal.Tile Cert.KernelIdeal.Staged

variable (m : (ℓ : Loc nD τ sig) → Buf (Elt Ideal) ℓ) (ρ : Dev nD → PrngReg)

/-- THE RESULT: the batch of cells of the argument arrays as launched. -/
def result (c : Dev nD) : S2x65536x256.Idx → EReal :=
  batch (m ((c : Thread nD τ).loc main_arg0)) (m ((c : Thread nD τ).loc main_arg1)) (m ((c : Thread nD τ).loc main_arg2)) (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

/-- The printed index maps over the 64 tiles: the three streamed inputs and the result move one block of 1024 rows per
    tile, the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = 0 ∧ win0_11.index t (1 : Fin 3) = t.val ∧ win0_11.index t (2 : Fin 3) = 0 :=
  (by decide +kernel : ∀ t : Fin grid0.N, _)

theorem tile_lt (t : Fin cfg0.N) : t.val < 64 := by
  have h : t.val < grid0.N := t.isLt
  rw [N_0] at h
  exact h

/-- Row r of tile t is node 1024 t + r. -/
abbrev node (t : Fin cfg0.N) (r : Fin 1024) : Fin 65536 := ⟨t.val * 1024 + r.val, by have := tile_lt t; omega⟩

/-! ## Each window's block at tile t, read against the argument arrays -/

/-- Row r of tile t's input block is node 1024 t + r's input. -/
theorem readX (c : Dev nD) (t : Fin cfg0.N) (r : Fin 1024) (k : Fin 300) :
    iblk m c 0 t (ix2 r k) = (m ((c : Thread nD τ).loc main_arg0)) (ix2 (node t r) k) := by
  obtain ⟨f0a, f0b, -⟩ := idx_facts t
  have e : ((cfg0.win 0).blk t).view.emb (ix2 r k : S1024x300.Idx) = ix2 (node t r) k := funext fun a => Fin.ext (by
      match a with
      | ⟨0, _⟩ => show win0_0.index t (0 : Fin 2) * 1024 + 1 * r.val = t.val * 1024 + r.val; omega
      | ⟨1, _⟩ => show win0_0.index t (1 : Fin 2) * 300 + 1 * k.val = k.val; omega)
  show V m c main_arg0 (((cfg0.win 0).blk t).view.emb (ix2 r k : S1024x300.Idx)) = _
  rw [e, V_main_arg0]

/-- Child a's columns of row r of tile t's flattened hidden block are node 1024 t + r's h a. -/
theorem readH (c : Dev nD) (t : Fin cfg0.N) (r : Fin 1024) (a : Fin 4) (k : Fin 256) :
    iblk m c 1 t (ix2 r (col a k)) = (m ((c : Thread nD τ).loc main_arg1)) (ix3 (node t r) a k) := by
  obtain ⟨-, -, f1a, f1b, -⟩ := idx_facts t
  have e : ((cfg0.win 1).blk t).view.emb (ix2 r (col a k) : S1024x1024.Idx) = ix2 (node t r) (col a k) := funext fun b => Fin.ext (by
      match b with
      | ⟨0, _⟩ => show win0_1.index t (0 : Fin 2) * 1024 + 1 * r.val = t.val * 1024 + r.val; omega
      | ⟨1, _⟩ => show win0_1.index t (1 : Fin 2) * 1024 + 1 * (256 * a.val + k.val) = 256 * a.val + k.val; omega)
  show V m c main_v0 (((cfg0.win 1).blk t).view.emb (ix2 r (col a k) : S1024x1024.Idx)) = _
  rw [e, flatH m c]
  exact flat_apply _ (node t r) a k

/-- The same for the flattened cell block. -/
theorem readC (c : Dev nD) (t : Fin cfg0.N) (r : Fin 1024) (a : Fin 4) (k : Fin 256) :
    iblk m c 2 t (ix2 r (col a k)) = (m ((c : Thread nD τ).loc main_arg2)) (ix3 (node t r) a k) := by
  obtain ⟨-, -, -, -, f2a, f2b, -⟩ := idx_facts t
  have e : ((cfg0.win 2).blk t).view.emb (ix2 r (col a k) : S1024x1024.Idx) = ix2 (node t r) (col a k) := funext fun b => Fin.ext (by
      match b with
      | ⟨0, _⟩ => show win0_2.index t (0 : Fin 2) * 1024 + 1 * r.val = t.val * 1024 + r.val; omega
      | ⟨1, _⟩ => show win0_2.index t (1 : Fin 2) * 1024 + 1 * (256 * a.val + k.val) = 256 * a.val + k.val; omega)
  show V m c main_v1 (((cfg0.win 2).blk t).view.emb (ix2 r (col a k) : S1024x1024.Idx)) = _
  rw [e, flatC m c]
  exact flat_apply _ (node t r) a k

/-- The W_f tile at (k, j) is W_f at (j, k), at every tile. -/
theorem readWf (c : Dev nD) (t : Fin cfg0.N) (k : Fin 300) (j : Fin 256) :
    iblk m c 3 t (ix2 k j) = (m ((c : Thread nD τ).loc main_arg7)) (ix2 j k) := by
  obtain ⟨-, -, -, -, -, -, f3a, f3b, f4a, f4b, f5a, f5b, f6a, f6b, f7a, f7b, f8a, f8b, f9a, f9b, f10a, f10b, -, -, -⟩ := idx_facts t
  have e : ((cfg0.win 3).blk t).view.emb (ix2 k j : S300x256.Idx) = ix2 k j := funext fun a => Fin.ext (by
      match a with
      | ⟨0, _⟩ => show win0_3.index t (0 : Fin 2) * 300 + 1 * k.val = k.val; omega
      | ⟨1, _⟩ => show win0_3.index t (1 : Fin 2) * 256 + 1 * j.val = j.val; omega)
  show V m c main_v3 (((cfg0.win 3).blk t).view.emb (ix2 k j : S300x256.Idx)) = _
  rw [e, wfT m c]
  exact wfT_apply _ k j

/-- The b_Wf row tile at (0, j) is b_Wf at j. -/
theorem readbWf (c : Dev nD) (t : Fin cfg0.N) (j : Fin 256) :
    iblk m c 4 t (ix2 (0 : Fin 1) j) = (m ((c : Thread nD τ).loc main_arg8)) (ix1 j) := by
  obtain ⟨-, -, -, -, -, -, f3a, f3b, f4a, f4b, f5a, f5b, f6a, f6b, f7a, f7b, f8a, f8b, f9a, f9b, f10a, f10b, -, -, -⟩ := idx_facts t
  have e : ((cfg0.win 4).blk t).view.emb (ix2 (0 : Fin 1) j : S1x256.Idx) = ix2 (0 : Fin 1) j := funext fun a => Fin.ext (by
      match a with
      | ⟨0, _⟩ => show win0_4.index t (0 : Fin 2) * 1 + 1 * (0 : Fin 1).val = (0 : Fin 1).val; omega
      | ⟨1, _⟩ => show win0_4.index t (1 : Fin 2) * 256 + 1 * j.val = j.val; omega)
  show V m c main_v10 (((cfg0.win 4).blk t).view.emb (ix2 (0 : Fin 1) j : S1x256.Idx)) = _
  rw [e, bWfRow m c]
  exact row256_apply _ j

/-- The U_f tile at (k, j) is U_f at (j, k). -/
theorem readUf (c : Dev nD) (t : Fin cfg0.N) (k : Fin 256) (j : Fin 256) :
    iblk m c 5 t (ix2 k j) = (m ((c : Thread nD τ).loc main_arg9)) (ix2 j k) := by
  obtain ⟨-, -, -, -, -, -, f3a, f3b, f4a, f4b, f5a, f5b, f6a, f6b, f7a, f7b, f8a, f8b, f9a, f9b, f10a, f10b, -, -, -⟩ := idx_facts t
  have e : ((cfg0.win 5).blk t).view.emb (ix2 k j : S256x256.Idx) = ix2 k j := funext fun a => Fin.ext (by
      match a with
      | ⟨0, _⟩ => show win0_5.index t (0 : Fin 2) * 256 + 1 * k.val = k.val; omega
      | ⟨1, _⟩ => show win0_5.index t (1 : Fin 2) * 256 + 1 * j.val = j.val; omega)
  show V m c main_v5 (((cfg0.win 5).blk t).view.emb (ix2 k j : S256x256.Idx)) = _
  rw [e, ufT m c]
  exact ufT_apply _ k j

/-- The b_Uf row tile at (0, j) is b_Uf at j. -/
theorem readbUf (c : Dev nD) (t : Fin cfg0.N) (j : Fin 256) :
    iblk m c 6 t (ix2 (0 : Fin 1) j) = (m ((c : Thread nD τ).loc main_arg10)) (ix1 j) := by
  obtain ⟨-, -, -, -, -, -, f3a, f3b, f4a, f4b, f5a, f5b, f6a, f6b, f7a, f7b, f8a, f8b, f9a, f9b, f10a, f10b, -, -, -⟩ := idx_facts t
  have e : ((cfg0.win 6).blk t).view.emb (ix2 (0 : Fin 1) j : S1x256.Idx) = ix2 (0 : Fin 1) j := funext fun a => Fin.ext (by
      match a with
      | ⟨0, _⟩ => show win0_6.index t (0 : Fin 2) * 1 + 1 * (0 : Fin 1).val = (0 : Fin 1).val; omega
      | ⟨1, _⟩ => show win0_6.index t (1 : Fin 2) * 256 + 1 * j.val = j.val; omega)
  show V m c main_v11 (((cfg0.win 6).blk t).view.emb (ix2 (0 : Fin 1) j : S1x256.Idx)) = _
  rw [e, bUfRow m c]
  exact row256_apply _ j

/-- The W_iou tile at (k, g) is W_iou at (g, k). -/
theorem readWiou (c : Dev nD) (t : Fin cfg0.N) (k : Fin 300) (g : Fin 768) :
    iblk m c 7 t (ix2 k g) = (m ((c : Thread nD τ).loc main_arg3)) (ix2 g k) := by
  obtain ⟨-, -, -, -, -, -, f3a, f3b, f4a, f4b, f5a, f5b, f6a, f6b, f7a, f7b, f8a, f8b, f9a, f9b, f10a, f10b, -, -, -⟩ := idx_facts t
  have e : ((cfg0.win 7).blk t).view.emb (ix2 k g : S300x768.Idx) = ix2 k g := funext fun a => Fin.ext (by
      match a with
      | ⟨0, _⟩ => show win0_7.index t (0 : Fin 2) * 300 + 1 * k.val = k.val; omega
      | ⟨1, _⟩ => show win0_7.index t (1 : Fin 2) * 768 + 1 * g.val = g.val; omega)
  show V m c main_v7 (((cfg0.win 7).blk t).view.emb (ix2 k g : S300x768.Idx)) = _
  rw [e, wiouT m c]
  exact wiouT_apply _ k g

/-- The b_iou row tile at (0, g) is b_iou at g. -/
theorem readbiou (c : Dev nD) (t : Fin cfg0.N) (g : Fin 768) :
    iblk m c 8 t (ix2 (0 : Fin 1) g) = (m ((c : Thread nD τ).loc main_arg4)) (ix1 g) := by
  obtain ⟨-, -, -, -, -, -, f3a, f3b, f4a, f4b, f5a, f5b, f6a, f6b, f7a, f7b, f8a, f8b, f9a, f9b, f10a, f10b, -, -, -⟩ := idx_facts t
  have e : ((cfg0.win 8).blk t).view.emb (ix2 (0 : Fin 1) g : S1x768.Idx) = ix2 (0 : Fin 1) g := funext fun a => Fin.ext (by
      match a with
      | ⟨0, _⟩ => show win0_8.index t (0 : Fin 2) * 1 + 1 * (0 : Fin 1).val = (0 : Fin 1).val; omega
      | ⟨1, _⟩ => show win0_8.index t (1 : Fin 2) * 768 + 1 * g.val = g.val; omega)
  show V m c main_v12 (((cfg0.win 8).blk t).view.emb (ix2 (0 : Fin 1) g : S1x768.Idx)) = _
  rw [e, biouRow m c]
  exact row768_apply _ g

/-- The U_iou tile at (k, g) is U_iou at (g, k). -/
theorem readUiou (c : Dev nD) (t : Fin cfg0.N) (k : Fin 256) (g : Fin 768) :
    iblk m c 9 t (ix2 k g) = (m ((c : Thread nD τ).loc main_arg5)) (ix2 g k) := by
  obtain ⟨-, -, -, -, -, -, f3a, f3b, f4a, f4b, f5a, f5b, f6a, f6b, f7a, f7b, f8a, f8b, f9a, f9b, f10a, f10b, -, -, -⟩ := idx_facts t
  have e : ((cfg0.win 9).blk t).view.emb (ix2 k g : S256x768.Idx) = ix2 k g := funext fun a => Fin.ext (by
      match a with
      | ⟨0, _⟩ => show win0_9.index t (0 : Fin 2) * 256 + 1 * k.val = k.val; omega
      | ⟨1, _⟩ => show win0_9.index t (1 : Fin 2) * 768 + 1 * g.val = g.val; omega)
  show V m c main_v9 (((cfg0.win 9).blk t).view.emb (ix2 k g : S256x768.Idx)) = _
  rw [e, uiouT m c]
  exact uiouT_apply _ k g

/-- The b_Uiou row tile at (0, g) is b_Uiou at g. -/
theorem readbUiou (c : Dev nD) (t : Fin cfg0.N) (g : Fin 768) :
    iblk m c 10 t (ix2 (0 : Fin 1) g) = (m ((c : Thread nD τ).loc main_arg6)) (ix1 g) := by
  obtain ⟨-, -, -, -, -, -, f3a, f3b, f4a, f4b, f5a, f5b, f6a, f6b, f7a, f7b, f8a, f8b, f9a, f9b, f10a, f10b, -, -, -⟩ := idx_facts t
  have e : ((cfg0.win 10).blk t).view.emb (ix2 (0 : Fin 1) g : S1x768.Idx) = ix2 (0 : Fin 1) g := funext fun a => Fin.ext (by
      match a with
      | ⟨0, _⟩ => show win0_10.index t (0 : Fin 2) * 1 + 1 * (0 : Fin 1).val = (0 : Fin 1).val; omega
      | ⟨1, _⟩ => show win0_10.index t (1 : Fin 2) * 768 + 1 * g.val = g.val; omega)
  show V m c main_v13 (((cfg0.win 10).blk t).view.emb (ix2 (0 : Fin 1) g : S1x768.Idx)) = _
  rw [e, bUiouRow m c]
  exact row768_apply _ g

/-! ## What tile t writes back, the cover, the array -/

/-- WHAT TILE t WRITES BACK is block t of the batch result. -/
theorem flushed_eq (c : Dev nD) (t : Fin cfg0.N) :
    (dats m 0 c).flushed 11 t = ((cfg0.win 11).blk t).view.read (Elt Ideal) (result m c) := by
  rw [Value.flushed11]
  obtain ⟨-, -, -, -, -, -, -, -, -, -, -, -, -, -, -, -, -, -, -, -, -, -, g0, g1, g2⟩ := idx_facts t
  funext y
  obtain ⟨s, r, j, rfl⟩ : ∃ (s : Fin 2) (r : Fin 1024) (j : Fin 256), y = ix3 s r j := ⟨y 0, y 1, y 2, eq_ix3 y⟩
  have e : ((cfg0.win 11).blk t).view.emb (ix3 s r j : S2x1024x256.Idx) = ix3 s (node t r) j := funext fun a => Fin.ext (by
      match a with
      | ⟨0, _⟩ => show win0_11.index t (0 : Fin 3) * 2 + 1 * s.val = s.val; omega
      | ⟨1, _⟩ => show win0_11.index t (1 : Fin 3) * 1024 + 1 * r.val = t.val * 1024 + r.val; omega
      | ⟨2, _⟩ => show win0_11.index t (2 : Fin 3) * 256 + 1 * j.val = j.val; omega)
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 s r j)
    = result m c (((cfg0.win 11).blk t).view.emb (ix3 s r j : S2x1024x256.Idx))
  rw [e]
  exact tile_out (paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (rowX (m ((c : Thread nD τ).loc main_arg0)) (node t r)) (rowM (m ((c : Thread nD τ).loc main_arg1)) (node t r)) (rowM (m ((c : Thread nD τ).loc main_arg2)) (node t r)) r
    (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (fun k => readX m c t r k) (fun a k => readH m c t r a k) (fun a k => readC m c t r a k)
    (fun j k => readWf m c t k j) (fun j => readbWf m c t j) (fun j k => readUf m c t k j) (fun j => readbUf m c t j)
    (fun g k => readWiou m c t k g) (fun g => readbiou m c t g) (fun g k => readUiou m c t k g) (fun g => readbUiou m c t g)
    s j

/-- An index of the result array is in tile t's block iff each coordinate is in the block's range on its axis. -/
theorem mem_blk (t : Fin cfg0.N) (i : S2x65536x256.Idx) :
    i ∈ ((cfg0.win 11).blk t).view.set ↔ ∀ a : Fin 3, win0_11.index t a * S2x1024x256.size a ≤ (i a).val
      ∧ (i a).val < win0_11.index t a * S2x1024x256.size a + S2x1024x256.size a := by
  show i ∈ ((View.whole main_v14).slice (win0_11.rect t)).set ↔ _
  rw [View.set_slice_whole, Rect.mem_set_unit]
  exact Iff.rfl

/-- EVERY INDEX IS COVERED: node n is written by tile n / 1024. -/
theorem cover (i : S2x65536x256.Idx) : ∃ t : Fin cfg0.N, (cfg0.win 11).flush t = true ∧ i ∈ ((cfg0.win 11).blk t).view.set := by
  have h0 : (i 0).val < 2 := (i 0).isLt
  have h1 : (i 1).val < 65536 := (i 1).isLt
  have h2 : (i 2).val < 256 := (i 2).isLt
  have hN : (i 1).val / 1024 < cfg0.N := by show _ < grid0.N; rw [N_0]; omega
  obtain ⟨-, -, -, -, -, -, -, -, -, -, -, -, -, -, -, -, -, -, -, -, -, -, g0, g1, g2⟩ := idx_facts ⟨(i 1).val / 1024, hN⟩
  have g1' : win0_11.index ⟨(i 1).val / 1024, hN⟩ (1 : Fin 3) = (i 1).val / 1024 := g1
  refine ⟨⟨(i 1).val / 1024, hN⟩, flush0_11 _, ?_⟩
  rw [mem_blk]
  intro a
  match a with
  | ⟨0, _⟩ => show win0_11.index _ (0 : Fin 3) * 2 ≤ (i 0).val ∧ (i 0).val < win0_11.index _ (0 : Fin 3) * 2 + 2; omega
  | ⟨1, _⟩ => show win0_11.index _ (1 : Fin 3) * 1024 ≤ (i 1).val ∧ (i 1).val < win0_11.index _ (1 : Fin 3) * 1024 + 1024; omega
  | ⟨2, _⟩ => show win0_11.index _ (2 : Fin 3) * 256 ≤ (i 2).val ∧ (i 2).val < win0_11.index _ (2 : Fin 3) * 256 + 256; omega

/-- THE RESULT ARRAY after the run is the batch of cells of the arguments. -/
theorem final (c : Dev nD) : (dats m 0 c).arrAt 11 cfg0.N = result m c :=
  (dats m 0 c).arrAt_eq_of_cover 11 (result m c) (fun t _ => flushed_eq m c t) cover

/-- The run: every weakly fair execution terminates with the result array at the batch of cells, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.CellValue

end
-- ==== Proof.RefCell.lean ====
/-
  The whole-array evaluation of the batch is the tree-LSTM cell applied row by row.

  Each stage of the whole-array program, read at one entry, is a stage of the cell's formula on node n's rows: the
  transposed weight matrices are read back at (output, input); a bias spread over rows and children reads the bias at
  its column; a sum over the children axis started from zero is the sum over the four children; the logistic function
  is written out as 1 / (1 + exp (- y)), which is its definition on the extended reals once the word for 1.0 is read as
  one; the three gate slices read columns j, 256 + j and 512 + j of the gate pre-activations; and the result joins the
  hidden states (slot 0) and the cell states (slot 1) along a new leading axis.
-/
import proofs.«119210_j22351009808691_2_alg».proof.Proof.Gen.ReferenceIdeal.Read
import proofs.«119210_j22351009808691_2_alg».proof.Proof.TreeCell
import Idealize.ShloMosaic.Lib.IdealHost

noncomputable section

open scoped BigOperators

namespace Cert.ReferenceIdeal.RefCell

open Idealize.ShloMosaic Idealize.ShloMosaic.ValueIdx Cert.ReferenceIdeal Cert.ReferenceIdeal.Gen Cert.ReferenceIdeal.Read Cert.TreeCell

variable (X : S65536x300.Idx → EReal) (H C : S65536x4x256.Idx → EReal)
  (Wiou : S768x300.Idx → EReal) (biou : S768.Idx → EReal) (Uiou : S768x256.Idx → EReal) (bUiou : S768.Idx → EReal)
  (Wf : S256x300.Idx → EReal) (bWf : S256.Idx → EReal) (Uf : S256x256.Idx → EReal) (bUf : S256.Idx → EReal)

/-- The logistic function written out over the words for 1.0. -/
theorem sigmoid_eq (y : EReal) :
    Ideal.div (Ideal.ofBits .f32 0x3F800000#32) (Ideal.ofBits .f32 0x3F800000#32 + Ideal.exp (-y)) = Ideal.logistic y := by
  rw [Ideal.ofBits_one_f32]; rfl

/-- x W_f + b_Wf at (n, j). -/
theorem wx_ref (n : Fin 65536) (j : Fin 256) :
    val_main_v5 (F := Ideal) X Wf bWf (ix2 n j)
      = affine (paramsOf Wiou biou Uiou bUiou Wf bWf Uf bUf).Wf (paramsOf Wiou biou Uiou bUiou Wf bWf Uf bUf).bWf (rowX X n) j := by
  have e1 : ∀ k, lidx_main_v2 (ix2 n j) k = ix2 n k := fun k => funext fun a => Fin.ext (by
    match a with | ⟨0, _⟩ => rfl | ⟨1, _⟩ => rfl)
  have e2 : ∀ k, idx_main_v1 (ridx_main_v2 (ix2 n j) k) = ix2 j k := fun k => funext fun a => Fin.ext (by
    match a with | ⟨0, _⟩ => rfl | ⟨1, _⟩ => rfl)
  have e3 : idx_main_v3 (idx_main_v4 (ix2 n j)) = ix1 j := funext fun a => Fin.ext (by
    match a with | ⟨0, _⟩ => rfl)
  rw [val_main_v5_apply, val_main_v2_apply, val_main_v4_apply, val_main_v3_apply]
  simp only [val_main_v1_apply, e1, e2, e3, Ideal.addf_def]
  rfl

/-- One child's forget gate at (n, a, j). -/
theorem forget_ref (n : Fin 65536) (a : Fin 4) (j : Fin 256) :
    val_main_v18 (F := Ideal) X H Wf bWf Uf bUf (ix3 n a j) = forget (paramsOf Wiou biou Uiou bUiou Wf bWf Uf bUf) (rowX X n) (rowM H n) a j := by
  have e1 : idx_main_v6 (idx_main_v11 (ix3 n a j)) = ix2 n j := funext fun b => Fin.ext (by match b with | ⟨0, _⟩ => rfl | ⟨1, _⟩ => rfl)
  have e2 : ∀ k, lidx_main_v7 (ix3 n a j) k = ix3 n a k := fun k => funext fun b => Fin.ext (by match b with | ⟨0, _⟩ => rfl | ⟨1, _⟩ => rfl | ⟨2, _⟩ => rfl)
  have e3 : ∀ k, ridx_main_v7 (ix3 n a j) k = ix2 j k := fun k => funext fun b => Fin.ext (by match b with | ⟨0, _⟩ => rfl | ⟨1, _⟩ => rfl)
  have e4 : idx_main_v8 (idx_main_v9 (ix3 n a j)) = ix1 j := funext fun b => Fin.ext (by match b with | ⟨0, _⟩ => rfl)
  rw [val_main_v18_apply, val_main_v17_apply, val_main_cst_1_apply, val_main_v16_apply, val_main_v15_apply,
    val_main_cst_0_apply, val_main_v14_apply, val_main_v13_apply, val_main_v12_apply, val_main_v11_apply, val_main_v6_apply, e1,
    wx_ref X Wiou biou Uiou bUiou Wf bWf Uf bUf, val_main_v10_apply, val_main_v7_apply, val_main_v9_apply, val_main_v8_apply, e4]
  simp only [e2, e3, Ideal.hostDivf_def, Ideal.addf_def, Ideal.mulf_def, Ideal.hostUnary_exp_def, Ideal.hostUnary_tanh_def, Ideal.hostNegf_def, Ideal.negf_def, Ideal.ofBits_def]
  rw [sigmoid_eq]
  rfl

/-- The gated sum of the children's cells at (n, j). -/
theorem ctilde_ref (n : Fin 65536) (j : Fin 256) :
    val_main_v20 (F := Ideal) X H C Wf bWf Uf bUf (ix2 n j) = cTilde (paramsOf Wiou biou Uiou bUiou Wf bWf Uf bUf) (rowX X n) (rowM H n) (rowM C n) j := by
  have e : ∀ a, idx_main_v20 (ix2 n j) a = ix3 n a j := fun a => funext fun b => Fin.ext (by match b with | ⟨0, _⟩ => rfl | ⟨1, _⟩ => rfl | ⟨2, _⟩ => rfl)
  rw [val_main_v20_apply, val_main_cst_2_apply]
  simp only [e, val_main_v19_apply, forget_ref X H Wiou biou Uiou bUiou Wf bWf Uf bUf, Ideal.ofBits_def, Ideal.ofBits_zero_f32, zero_add, Ideal.mulf_def]
  rfl

/-- The children's hidden vectors summed, at (n, k). -/
theorem htilde_ref (n : Fin 65536) (k : Fin 256) : val_main_v0 (F := Ideal) H (ix2 n k) = hTilde (rowM H n) k := by
  have e : ∀ a, idx_main_v0 (ix2 n k) a = ix3 n a k := fun a => funext fun b => Fin.ext (by match b with | ⟨0, _⟩ => rfl | ⟨1, _⟩ => rfl | ⟨2, _⟩ => rfl)
  rw [val_main_v0_apply, val_main_cst_apply]
  simp only [e, Ideal.ofBits_def, Ideal.ofBits_zero_f32, zero_add]
  rfl

/-- The gate pre-activations at (n, g). -/
theorem gates_ref (n : Fin 65536) (g : Fin 768) :
    val_main_v31 (F := Ideal) X H Wiou biou Uiou bUiou (ix2 n g) = gates (paramsOf Wiou biou Uiou bUiou Wf bWf Uf bUf) (rowX X n) (rowM H n) g := by
  have e1 : ∀ k, lidx_main_v22 (ix2 n g) k = ix2 n k := fun k => funext fun b => Fin.ext (by match b with | ⟨0, _⟩ => rfl | ⟨1, _⟩ => rfl)
  have e2 : ∀ k, idx_main_v21 (ridx_main_v22 (ix2 n g) k) = ix2 g k := fun k => funext fun b => Fin.ext (by match b with | ⟨0, _⟩ => rfl | ⟨1, _⟩ => rfl)
  have e3 : idx_main_v23 (idx_main_v24 (ix2 n g)) = ix1 g := funext fun b => Fin.ext (by match b with | ⟨0, _⟩ => rfl)
  have e4 : ∀ k, lidx_main_v27 (ix2 n g) k = ix2 n k := fun k => funext fun b => Fin.ext (by match b with | ⟨0, _⟩ => rfl | ⟨1, _⟩ => rfl)
  have e5 : ∀ k, idx_main_v26 (ridx_main_v27 (ix2 n g) k) = ix2 g k := fun k => funext fun b => Fin.ext (by match b with | ⟨0, _⟩ => rfl | ⟨1, _⟩ => rfl)
  have e6 : idx_main_v28 (idx_main_v29 (ix2 n g)) = ix1 g := funext fun b => Fin.ext (by match b with | ⟨0, _⟩ => rfl)
  rw [val_main_v31_apply, val_main_v25_apply, val_main_v22_apply, val_main_v24_apply, val_main_v23_apply, e3,
    val_main_v30_apply, val_main_v27_apply, val_main_v29_apply, val_main_v28_apply, e6]
  simp only [val_main_v21_apply, val_main_v26_apply, e1, e2, e4, e5, htilde_ref, Ideal.addf_def]
  rfl

/-- The new cell state at (n, j). -/
theorem cell_ref (n : Fin 65536) (j : Fin 256) :
    val_main_v49 (F := Ideal) X H C Wiou biou Uiou bUiou Wf bWf Uf bUf (ix2 n j) = cell (paramsOf Wiou biou Uiou bUiou Wf bWf Uf bUf) (rowX X n) (rowM H n) (rowM C n) j := by
  have e1 : idx_main_v32 (ix2 n j) = ix2 n (gI j) := funext fun b => Fin.ext (by match b with | ⟨0, _⟩ => rfl | ⟨1, _⟩ => rfl)
  have e2 : idx_main_v34 (ix2 n j) = ix2 n (gU j) := funext fun b => Fin.ext (by match b with | ⟨0, _⟩ => rfl | ⟨1, _⟩ => rfl)
  rw [val_main_v49_apply, val_main_v48_apply, val_main_v40_apply, val_main_v39_apply, val_main_cst_4_apply, val_main_v38_apply,
    val_main_v37_apply, val_main_cst_3_apply, val_main_v36_apply, val_main_v35_apply, val_main_v32_apply, e1,
    gates_ref X H Wiou biou Uiou bUiou Wf bWf Uf bUf, val_main_v47_apply, val_main_v34_apply, e2, gates_ref X H Wiou biou Uiou bUiou Wf bWf Uf bUf, ctilde_ref X H C Wiou biou Uiou bUiou Wf bWf Uf bUf]
  simp only [Ideal.hostDivf_def, Ideal.addf_def, Ideal.mulf_def, Ideal.hostUnary_exp_def, Ideal.hostUnary_tanh_def, Ideal.hostNegf_def, Ideal.negf_def, Ideal.ofBits_def]
  rw [sigmoid_eq]
  rfl

/-- The new hidden state at (n, j). -/
theorem hidden_ref (n : Fin 65536) (j : Fin 256) :
    val_main_v51 (F := Ideal) X H C Wiou biou Uiou bUiou Wf bWf Uf bUf (ix2 n j) = hidden (paramsOf Wiou biou Uiou bUiou Wf bWf Uf bUf) (rowX X n) (rowM H n) (rowM C n) j := by
  have e1 : idx_main_v33 (ix2 n j) = ix2 n (gO j) := funext fun b => Fin.ext (by match b with | ⟨0, _⟩ => rfl | ⟨1, _⟩ => rfl)
  rw [val_main_v51_apply, val_main_v46_apply, val_main_v45_apply, val_main_cst_6_apply, val_main_v44_apply,
    val_main_v43_apply, val_main_cst_5_apply, val_main_v42_apply, val_main_v41_apply, val_main_v33_apply, e1,
    gates_ref X H Wiou biou Uiou bUiou Wf bWf Uf bUf, val_main_v50_apply, cell_ref X H C Wiou biou Uiou bUiou Wf bWf Uf bUf]
  simp only [Ideal.hostDivf_def, Ideal.addf_def, Ideal.mulf_def, Ideal.hostUnary_exp_def, Ideal.hostUnary_tanh_def, Ideal.hostNegf_def, Ideal.negf_def, Ideal.ofBits_def]
  rw [sigmoid_eq]
  rfl

/-- Slot 0 of the batch at node n is the node's hidden state, slot 1 its cell state. -/
theorem batch_slot0 (P : Params) (n : Fin 65536) (j : Fin 256) :
    batch X H C P (ix3 (0 : Fin 2) n j) = hidden P (rowX X n) (rowM H n) (rowM C n) j := by
  unfold batch out
  exact if_pos rfl
theorem batch_slot1 (P : Params) (n : Fin 65536) (j : Fin 256) :
    batch X H C P (ix3 (1 : Fin 2) n j) = cell P (rowX X n) (rowM H n) (rowM C n) j := by
  unfold batch out
  exact if_neg Nat.one_ne_zero

/-- THE WHOLE-ARRAY RESULT is the batch of cells: slot 0 the hidden states, slot 1 the cell states. -/
theorem result_eq : val_main_v54 (F := Ideal) X H C Wiou biou Uiou bUiou Wf bWf Uf bUf = batch X H C (paramsOf Wiou biou Uiou bUiou Wf bWf Uf bUf) := by
  funext i
  obtain ⟨s, n, j, rfl⟩ : ∃ (s : Fin 2) (n : Fin 65536) (j : Fin 256), i = ix3 s n j := ⟨i 0, i 1, i 2, eq_ix3 i⟩
  have e52 : idx_main_v52 (ix3 (0 : Fin 1) n j) = ix2 n j := funext fun b => Fin.ext (by match b with | ⟨0, _⟩ => rfl | ⟨1, _⟩ => rfl)
  have e53 : idx_main_v53 (ix3 (0 : Fin 1) n j) = ix2 n j := funext fun b => Fin.ext (by match b with | ⟨0, _⟩ => rfl | ⟨1, _⟩ => rfl)
  unfold val_main_v54
  match s with
  | ⟨0, _⟩ =>
    refine (concatenate_pair_apply_left (t := S2x65536x256) (s₁ := S1x65536x256) (s₂ := S1x65536x256) (0 : Fin 3) _ _ concatenates_S1x65536x256_S1x65536x256_S2x65536x256_d0
      (ix3 (0 : Fin 2) n j) rfl (ix3 (0 : Fin 1) n j) (fun b => by match b with | ⟨0, _⟩ => rfl | ⟨1, _⟩ => rfl | ⟨2, _⟩ => rfl)).trans ?_
    rw [val_main_v52_apply, e52, hidden_ref]
    exact (batch_slot0 X H C _ n j).symm
  | ⟨1, _⟩ =>
    refine (concatenate_pair_apply_right (t := S2x65536x256) (s₁ := S1x65536x256) (s₂ := S1x65536x256) (0 : Fin 3) _ _ concatenates_S1x65536x256_S1x65536x256_S2x65536x256_d0
      (ix3 (1 : Fin 2) n j) rfl rfl (ix3 (0 : Fin 1) n j) (fun b hb => by
        match b with
        | ⟨0, _⟩ => exact absurd rfl hb
        | ⟨1, _⟩ => rfl
        | ⟨2, _⟩ => rfl) rfl).trans ?_
    rw [val_main_v53_apply, e53, cell_ref]
    exact (batch_slot1 X H C _ n j).symm

end Cert.ReferenceIdeal.RefCell

end
-- ==== Proof.lean ====
/-
  A tiled tree-LSTM cell against its whole-array evaluation, over the extended reals.

  The tiled program flattens the children's hidden and cell arrays, transposes the four weight matrices and sweeps the
  65536 nodes in 64 tiles of 1024 rows; each tile computes, for its own rows, the children's forget gates, the gated sum
  of the children's cells, the three gates from the input and the summed hidden vectors, and stores the new hidden state
  in slot 0 and the new cell state in slot 1 of a [2, 65536, 256] result. The whole-array program computes the same
  quantities for all nodes at once and stacks the two states.

  At the ideal instance both are one function of the argument arrays, the batch of cells (TreeCell.lean): a change of
  float format is the identity, a tile product into zeros and a whole-array contraction are the same finite sum, the
  logistic function is 1 / (1 + exp (- y)) whether named or written out, and the two programs differ otherwise only in
  the order and grouping of finite sums of extended reals, which need no finiteness. The tiled side is the per-tile
  value (TileOps, TileCell, TileResult), the arrays the region is launched on (Staged) and the cover of the result by
  the 64 tiles (WholeArray); the whole-array side reads each stage at an entry (RefCell). The three frames are the
  generated ones, and the idealization rewrote nothing, so its conjunct is trivial.
-/
import proofs.«119210_j22351009808691_2_alg».proof.Defs
import proofs.«119210_j22351009808691_2_alg».proof.Proof.Gen.Kernel
import proofs.«119210_j22351009808691_2_alg».proof.Proof.Gen.Kernel.Skeleton
import proofs.«119210_j22351009808691_2_alg».proof.Proof.Gen.Kernel.Launch
import proofs.«119210_j22351009808691_2_alg».proof.Proof.Gen.Kernel.Points
import proofs.«119210_j22351009808691_2_alg».proof.Proof.Gen.Kernel.Frame
import proofs.«119210_j22351009808691_2_alg».proof.Proof.Gen.KernelIdeal
import proofs.«119210_j22351009808691_2_alg».proof.Proof.Gen.KernelIdeal.Skeleton
import proofs.«119210_j22351009808691_2_alg».proof.Proof.Gen.KernelIdeal.Launch
import proofs.«119210_j22351009808691_2_alg».proof.Proof.Gen.KernelIdeal.Points
import proofs.«119210_j22351009808691_2_alg».proof.Proof.Gen.KernelIdeal.Frame
import proofs.«119210_j22351009808691_2_alg».proof.Proof.Gen.ReferenceIdeal
import proofs.«119210_j22351009808691_2_alg».proof.Proof.Gen.Pre_finite_inputs
import proofs.«119210_j22351009808691_2_alg».proof.Proof.Gen.KernelIdeal.Value
import proofs.«119210_j22351009808691_2_alg».proof.Proof.Gen.ReferenceIdeal.Run
import proofs.«119210_j22351009808691_2_alg».proof.Proof.Gen.ReferenceIdeal.Read
import proofs.«119210_j22351009808691_2_alg».proof.Proof.WholeArray
import proofs.«119210_j22351009808691_2_alg».proof.Proof.RefCell
import Idealize.ShloMosaic.Adequacy
import Idealize.ShloMosaic.Init

noncomputable section

namespace Cert.Proof

open Idealize.ShloMosaic Idealize.ShloMosaic.TcCoe Idealize.SL.Sem

/-- The word-level tiled program runs and leaves its arguments as they were. -/
theorem frame_k : Cert.frame_Kernel := fun m ρ _ => Cert.Kernel.Gen.frame m ρ

/-- So does the tiled program read at the ideal instance. -/
theorem frame_ki : Cert.frame_KernelIdeal := fun m ρ _ => Cert.KernelIdeal.Gen.frame m ρ

/-- The whole-array program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the batch of cells of those arguments. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v54_eq, Cert.ReferenceIdeal.RefCell.result_eq, h0, h1, h2, h3, h4, h5, h6, h7, h8,
    h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
